-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S64 : Shape := ⟨1, ![64]⟩
abbrev S1024 : Shape := ⟨1, ![1024]⟩
abbrev S4096x32 : Shape := ⟨2, ![4096, 32]⟩
abbrev S4096 : Shape := ⟨1, ![4096]⟩
abbrev S1024x4096 : Shape := ⟨2, ![1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64 : S_.BroadcastsInDim S64 (![] : Fin 0 → Fin S64.rank)
  reducesTo_S64_S_d0 : S64.ReducesTo [0] S_
  bcast_S_S1024 : S_.BroadcastsInDim S1024 (![] : Fin 0 → Fin S1024.rank)
  reducesTo_S1024_S_d0 : S1024.ReducesTo [0] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S4096x32 .f32) (main_arg8 : FVec F S4096 .f32) (main_arg9 : FVec F S1024x4096 .f32) (main_arg10 : FVec F S1024 .f32) (main_arg11 : FVec F S1024 .f32) (main_arg12 : FVec F S1024 .f32) (main_v33 : IVec S_ 1) : IVec S_ 1 :=
  let main_v34 : FVec F S4096x32 .f32 := Host.absf main_arg7
  let main_cst_12 : FVec F S_ .f32 := constant S_ .f32 0x7F800000#32
  let main_v35 : FVec F S4096x32 .f32 := broadcastInDim S4096x32 ![] bcast_S_S4096x32 main_cst_12
  let main_v36 : IVec S4096x32 1 := cmpf .olt main_v34 main_v35
  let main_c_13 : IVec S_ 1 := constantI S_ 1 1#1
  let main_v37 : IVec S_ 1 := (fun x v => Host.reduce IntOp.andi x v reducesTo_S4096x32_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024 .f32) (main_arg6 : FVec F S1024 .f32) (main_arg7 : FVec F S4096x32 .f32) (main_arg8 : FVec F S4096 .f32) (main_arg9 : FVec F S1024x4096 .f32) (main_arg10 : FVec F S1024 .f32) (main_arg11 : FVec F S1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x2048x1024 .f32) (main_arg1 : FVec F S1024x1024 .f32) (main_arg2 : FVec F S64 .f32) (main_arg3 : FVec F S1024x1024 .f32) (main_arg4 : FVec F S1024 .f32) (main_arg5 : FVec F S1024 .f32) (main_arg6 : FVec F S1024 .f32) (main_arg7 : FVec F S4096x32 .f32) (main_arg8 : FVec F S4096 .f32) (main_arg9 : FVec F S1024x4096 .f32) (main_arg10 : FVec F S1024 .f32) (main_arg11 : FVec F S1024 .f32) (main_arg12 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S8x2048x1024 : Shape := ⟨3, ![8, 2048, 1024]⟩
abbrev S1024x1024 : Shape := ⟨2, ![1024, 1024]⟩
abbrev S64 : Shape := ⟨1, ![64]⟩
abbrev S1024 : Shape := ⟨1, ![1024]⟩
abbrev S4096x32 : Shape := ⟨2, ![4096, 32]⟩
abbrev S4096 : Shape := ⟨1, ![4096]⟩
abbrev S1024x4096 : Shape := ⟨2, ![1024, 4096]⟩
abbrev S16384x1024 : Shape := ⟨2, ![16384, 1024]⟩
abbrev S_ : Shape := ⟨0, ![]⟩
abbrev S4096x128 : Shape := ⟨2, ![4096, 128]⟩
abbrev S1x64 : Shape := ⟨2, ![1, 64]⟩
abbrev S16x64 : Shape := ⟨2, ![16, 64]⟩
abbrev S1x1024 : Shape := ⟨2, ![1, 1024]⟩
abbrev S1x4096 : Shape := ⟨2, ![1, 4096]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x4096 : Shape := ⟨2, ![256, 4096]⟩

abbrev nBuf : Space → Nat
  | .hbm => 31
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x32, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S16384x1024, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S64, .f32⟩
  | .hbm, ⟨18, _⟩ => ⟨S1x64, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x4096, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S8x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4096x128, .f32⟩
  | .local _ .vmem, ⟨9, _⟩ => ⟨S1x4096, .f32⟩
  | .local _ .vmem, ⟨10, _⟩ => ⟨S1024x4096, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S8x2048x1024_S16384x1024 : S8x2048x1024.ShapeCasts S16384x1024
  pads_S4096x32_S4096x128_000_0960 : S4096x32.Pads (![0, 0] : Fin 2 → Nat) ![0, 96] ![0, 0] S4096x128
  h_S_ : 0 < S_.numel
  shapeCasts_S64_S1x64 : S64.ShapeCasts S1x64
  bcast_S1x64_S16x64_0_1 : S1x64.BroadcastsInDim S16x64 (![0, 1] : Fin 2 → Fin S16x64.rank)
  shapeCasts_S16x64_S1024 : S16x64.ShapeCasts S1024
  shapeCasts_S1024_S1x1024 : S1024.ShapeCasts S1x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  slices_S256x1024_o0_0_S256x128 : S256x1024.Slices ![0, 0] S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S16384x1024_S8x2048x1024 : S16384x1024.ShapeCasts S8x2048x1024
  dot_S256x1024_S1024x1024_S256x1024_1_1_0_0_n_n_wf : DotDims.WF S256x1024 S1024x1024 S256x1024 [1] [1] [0] [0] [] []
  dot_S256x128_S4096x128_S256x4096_1_1_0_0_n_n_wf : DotDims.WF S256x128 S4096x128 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S4096x128.size a
  hwx0_7 : ∀ i : grid0.Coords, EltTy.bits .f32 = 32 ∨ (Rect.block (s := S4096x128) S4096x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x4096.size a ≤ S1024x4096.size a
  hwx0_9 : ∀ i : grid0.Coords, EltTy.bits .f32 = 32 ∨ (Rect.block (s := S1024x4096) S1024x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S16384x1024.size a
  hwx0_13 : ∀ i : grid0.Coords, EltTy.bits .f32 = 32 ∨ (Rect.block (s := S16384x1024) S256x1024.size (cc0_transform_13 i) (hinb0_13 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S4096x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S64 : Shape := ⟨1, ![64]⟩
abbrev S1024 : Shape := ⟨1, ![1024]⟩
abbrev S4096x32 : Shape := ⟨2, ![4096, 32]⟩
abbrev S4096 : Shape := ⟨1, ![4096]⟩
abbrev S1024x4096 : Shape := ⟨2, ![1024, 4096]⟩
abbrev S8x2048x16x64 : Shape := ⟨4, ![8, 2048, 16, 64]⟩
abbrev S1x1x1x64 : Shape := ⟨4, ![1, 1, 1, 64]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S8x2048x32 : Shape := ⟨3, ![8, 2048, 32]⟩
abbrev S8x2048x4096 : Shape := ⟨3, ![8, 2048, 4096]⟩
abbrev S1x1x4096 : Shape := ⟨3, ![1, 1, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x32, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S8x2048x1024, .f32⟩
  | .hbm, ⟨14, _⟩ => ⟨S8x2048x16x64, .f32⟩
  | .hbm, ⟨15, _⟩ => ⟨S8x2048x16x64, .f32⟩
  | .hbm, ⟨16, _⟩ => ⟨S64, .f32⟩
  | .hbm, ⟨17, _⟩ => ⟨S1x1x1x64, .f32⟩
  | .hbm, ⟨18, _⟩ => ⟨S8x2048x16x64, .f32⟩
  | .hbm, ⟨19, _⟩ => ⟨S8x2048x16x64, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S8x2048x32, .f32⟩
  | .hbm, ⟨56, _⟩ => ⟨S8x2048x32, .f32⟩
  | .hbm, ⟨57, _⟩ => ⟨S8x2048x4096, .f32⟩
  | .hbm, ⟨58, _⟩ => ⟨S1x1x4096, .f32⟩
  | .hbm, ⟨59, _⟩ => ⟨S8x2048x4096, .f32⟩
  | .hbm, ⟨60, _⟩ => ⟨S8x2048x4096, .f32⟩
  | .hbm, ⟨61, _⟩ => ⟨S_, .f32⟩
  | .hbm, ⟨62, _⟩ => ⟨S8x2048x4096, .f32⟩
  | .hbm, ⟨63, _⟩ => ⟨S8x2048x4096, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | .hbm, ⟨95, _⟩ => ⟨S1x1x1024, .f32⟩
  | .hbm, ⟨96, _⟩ => ⟨S8x2048x1024, .f32⟩
  | .hbm, ⟨97, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  shapeCasts_S8x2048x1024_S8x2048x16x64 : S8x2048x1024.ShapeCasts S8x2048x16x64
  bcast_S64_S1x1x1x64_3 : S64.BroadcastsInDim S1x1x1x64 (![3] : Fin 1 → Fin S1x1x1x64.rank)
  bcast_S1x1x1x64_S8x2048x16x64_0_1_2_3 : S1x1x1x64.BroadcastsInDim S8x2048x16x64 (![0, 1, 2, 3] : Fin 4 → Fin S8x2048x16x64.rank)
  shapeCasts_S8x2048x16x64_S8x2048x1024 : S8x2048x16x64.ShapeCasts S8x2048x1024
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  slices_S8x2048x1024_S8x2048x32_0_0_0 : S8x2048x1024.Slices ![0, 0, 0] S8x2048x32
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x1024_S1024x1024_S8x2048x1024_2_1_01_0_n_n_wf : DotDims.WF S8x2048x1024 S1024x1024 S8x2048x1024 [2] [1] [0, 1] [0] [] []
  dot_S8x2048x32_S4096x32_S8x2048x4096_2_1_01_0_n_n_wf : DotDims.WF S8x2048x32 S4096x32 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x32_S4096x32_S8x2048x4096_2_1_01_0_n_n : DotDims S8x2048x32 S4096x32 S8x2048x4096 where
  lhsContracting := [2]
  rhsContracting := [1]
  lhsNonContracting := [0, 1]
  rhsNonContracting := [0]
  lhsBatch := []
  rhsBatch := []
  wf := dot_S8x2048x32_S4096x32_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.TokenSpec.lean ====
/-
  THE SPECIFICATION.  The block treats every token (a row of 1024 features) on its own: nothing in it mixes two
  rows.  So the whole computation is ONE function `token` from a row to a row, applied to each of the 16384 rows:

    q      = cos (Wq x) ⊙ w            w e = cos (ry (e mod 64))   -- the 64 rotation angles, one copy per head
    h      = LN₁ (x + (Wc q + bc))
    hid    = max (W₁ (cos h[0..32)) + c₁) 0
    token  = LN₂ (h + (W₂ hid + c₂))

  where `LN g b v = (v - μ) · rsqrt (σ² + ε) · g + b`, `μ = (∑ v) / 1024`, `σ² = (∑ (v - μ)²) / 1024`, all operations
  the exact ones of the extended reals.  The three float literals (1024, ε, 0) are kept as their words: both programs
  carry the same words, so their values are never needed.

  The one algebraic law between the two programs is `sum_zero_tail`: a contraction over 128 terms whose last 96 are
  zero is the contraction over the first 32.  It uses only `x * 0 = 0`, true of EVERY extended real (the infinities
  included), so no finiteness of the inputs is needed anywhere.
-/
import Idealize.ShloMosaic.PureOps.Ideal
import Idealize.ShloMosaic.PureOps.Ideal.Laws
import Idealize.ShloMosaic.Lib.ValueIdx

open scoped BigOperators

noncomputable section

namespace Cert.TokenSpec

open Idealize.ShloMosaic Idealize.ShloMosaic.ValueIdx

/-- The literal `1024.0`, the length of a row, as its word. -/
def rowLen : EReal := Ideal.ofBits .f32 0x44800000#32
/-- The literal `ε` of both normalisations (the float nearest `1e-5`), as its word. -/
def eps : EReal := Ideal.ofBits .f32 0x3727C5AC#32
/-- The literal `0.0` the hidden layer is clamped at, as its word. -/
def floor0 : EReal := Ideal.ofBits .f32 0x00000000#32

/-- Entry `f` of `W v + b`: the contraction of `v` with row `f` of `W`, plus the bias. -/
def affine {n k : ℕ} (W : Fin n → Fin k → EReal) (b : Fin n → EReal) (v : Fin k → EReal) (f : Fin n) : EReal :=
  (∑ e : Fin k, v e * W f e) + b f

/-- The mean of a row. -/
def mean (v : Fin 1024 → EReal) : EReal := Ideal.div (∑ e : Fin 1024, v e) rowLen

/-- The variance of a row: the mean of the squared deviations. -/
def var (v : Fin 1024 → EReal) : EReal := Ideal.div (∑ e : Fin 1024, (v e - mean v) * (v e - mean v)) rowLen

/-- The normalised row before the gain: `(v - μ) · rsqrt (σ² + ε)`. -/
def unit (v : Fin 1024 → EReal) (j : Fin 1024) : EReal := (v j - mean v) * Ideal.rsqrt (var v + eps)

/-- Layer normalisation with gain `g` and bias `b`. -/
def lnorm (g b v : Fin 1024 → EReal) (j : Fin 1024) : EReal := unit v j * g j + b j

/-- The rotation factor of feature `e`: the 64 angles repeat with period 64 along the row (one copy per head). -/
def wire (ry : Fin 64 → EReal) (e : Fin 1024) : EReal := Ideal.cos (ry ⟨e.val % 64, Nat.mod_lt _ (by norm_num)⟩)

/-- The attention layer's activation: `cos` of the projection, times the rotation factor. -/
def attnAct (Wq : Fin 1024 → Fin 1024 → EReal) (ry : Fin 64 → EReal) (x : Fin 1024 → EReal) (e : Fin 1024) : EReal :=
  Ideal.cos (∑ d : Fin 1024, x d * Wq e d) * wire ry e

/-- The feed-forward layer's activation: `cos` of the first 32 features. -/
def ffnAct (h : Fin 1024 → EReal) (k : Fin 32) : EReal := Ideal.cos (h ⟨k.val, by omega⟩)

/-- The hidden layer: the affine image of the activation, clamped below at zero. -/
def hidden (W1 : Fin 4096 → Fin 32 → EReal) (c1 : Fin 4096 → EReal) (h : Fin 1024 → EReal) (f : Fin 4096) : EReal :=
  max (affine W1 c1 (ffnAct h) f) floor0

/-- The block's weights, as functions of coordinates. -/
structure Params where
  Wq : Fin 1024 → Fin 1024 → EReal
  ry : Fin 64 → EReal
  Wc : Fin 1024 → Fin 1024 → EReal
  bc : Fin 1024 → EReal
  g1 : Fin 1024 → EReal
  b1 : Fin 1024 → EReal
  W1 : Fin 4096 → Fin 32 → EReal
  c1 : Fin 4096 → EReal
  W2 : Fin 1024 → Fin 4096 → EReal
  c2 : Fin 1024 → EReal
  g2 : Fin 1024 → EReal
  b2 : Fin 1024 → EReal

/-- The row after the attention layer and the first normalisation. -/
def mid (P : Params) (x : Fin 1024 → EReal) : Fin 1024 → EReal :=
  lnorm P.g1 P.b1 (fun f => x f + affine P.Wc P.bc (attnAct P.Wq P.ry x) f)

/-- THE BLOCK ON ONE TOKEN. -/
def token (P : Params) (x : Fin 1024 → EReal) : Fin 1024 → EReal :=
  lnorm P.g2 P.b2 (fun j => mid P x j + affine P.W2 P.c2 (hidden P.W1 P.c1 (mid P x)) j)

/-- The weights read off the twelve weight arrays, by coordinates. -/
def paramsOf (a1 : (⟨2, ![1024, 1024]⟩ : Shape).Idx → EReal) (a2 : (⟨1, ![64]⟩ : Shape).Idx → EReal)
    (a3 : (⟨2, ![1024, 1024]⟩ : Shape).Idx → EReal) (a4 a5 a6 : (⟨1, ![1024]⟩ : Shape).Idx → EReal)
    (a7 : (⟨2, ![4096, 32]⟩ : Shape).Idx → EReal) (a8 : (⟨1, ![4096]⟩ : Shape).Idx → EReal)
    (a9 : (⟨2, ![1024, 4096]⟩ : Shape).Idx → EReal) (a10 a11 a12 : (⟨1, ![1024]⟩ : Shape).Idx → EReal) : Params where
  Wq f e := a1 (ix2 f e)
  ry d := a2 (ix1 d)
  Wc f e := a3 (ix2 f e)
  bc e := a4 (ix1 e)
  g1 e := a5 (ix1 e)
  b1 e := a6 (ix1 e)
  W1 f k := a7 (ix2 f k)
  c1 f := a8 (ix1 f)
  W2 j f := a9 (ix2 j f)
  c2 j := a10 (ix1 j)
  g2 j := a11 (ix1 j)
  b2 j := a12 (ix1 j)

/-- THE WHOLE RESULT: entry `(b, s, j)` is entry `j` of the block applied to token `(b, s)` of the input. -/
def blockOf (P : Params) (a0 : (⟨3, ![8, 2048, 1024]⟩ : Shape).Idx → EReal) : (⟨3, ![8, 2048, 1024]⟩ : Shape).Idx → EReal :=
  fun i => token P (fun e => a0 (ix3 (i 0) (i 1) e)) (i 2)

/-- A sum of 128 terms whose last 96 vanish is the sum of the first 32. -/
theorem sum_zero_tail (f : Fin 128 → EReal) (hf : ∀ k : Fin 128, 32 ≤ k.val → f k = 0) :
    ∑ k : Fin 128, f k = ∑ k : Fin 32, f ⟨k.val, by omega⟩ := by
  refine (Fin.sum_univ_add (a := 32) (b := 96) f).trans ?_
  rw [Finset.sum_eq_zero (s := Finset.univ) (f := fun i : Fin 96 => f (Fin.natAdd 32 i))
    (fun i _ => hf _ (Nat.le_add_right 32 i.val)), add_zero]
  exact Finset.sum_congr rfl fun i _ => rfl

/-- The padded contraction: against weights that vanish from column 32 on, 128 products sum to the first 32. -/
theorem contraction_zero_tail (a w : Fin 128 → EReal) (hw : ∀ k : Fin 128, 32 ≤ k.val → w k = 0) :
    ∑ k : Fin 128, a k * w k = ∑ k : Fin 32, a ⟨k.val, by omega⟩ * w ⟨k.val, by omega⟩ :=
  sum_zero_tail (fun k => a k * w k) fun k hk => by rw [hw k hk, mul_zero]

end Cert.TokenSpec

end
-- ==== Proof.Operands.lean ====
/-
  What the kernel is launched on.

  Before the launch the host re-lays the arguments: the input's 8 × 2048 tokens become 16384 rows; each bias and
  gain vector becomes a one-row matrix; the 64 rotation cosines are repeated 16 times along one row of 1024 (feature
  `e` gets the cosine of angle `e mod 64`); and the first feed-forward weight, 32 columns wide, is padded with
  zeros to 128 columns.  Each staged array is named here as that re-laying of an argument and read at coordinates.
-/
import proofs.«179164_j65481071407980_2_alg».proof.Proof.Gen.KernelIdeal.Frame
import proofs.«179164_j65481071407980_2_alg».proof.Proof.TokenSpec
import Idealize.ShloMosaic.Lib.StableHlo.Run
import Idealize.ShloMosaic.Lib.KernelVsHost
import Idealize.ShloMosaic.Lib.ValueLayout
import Idealize.ShloMosaic.Lib.Pipeline.Value

noncomputable section

namespace Cert.Operands

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (c : Dev nD)

/-- The thirteen argument arrays as launched, each at its literal shape. -/
abbrev a0 : S8x2048x1024.Idx → EReal := m ((c : Thread nD τ).loc main_arg0)
abbrev a1 : S1024x1024.Idx → EReal := m ((c : Thread nD τ).loc main_arg1)
abbrev a2 : S64.Idx → EReal := m ((c : Thread nD τ).loc main_arg2)
abbrev a3 : S1024x1024.Idx → EReal := m ((c : Thread nD τ).loc main_arg3)
abbrev a4 : S1024.Idx → EReal := m ((c : Thread nD τ).loc main_arg4)
abbrev a5 : S1024.Idx → EReal := m ((c : Thread nD τ).loc main_arg5)
abbrev a6 : S1024.Idx → EReal := m ((c : Thread nD τ).loc main_arg6)
abbrev a7 : S4096x32.Idx → EReal := m ((c : Thread nD τ).loc main_arg7)
abbrev a8 : S4096.Idx → EReal := m ((c : Thread nD τ).loc main_arg8)
abbrev a9 : S1024x4096.Idx → EReal := m ((c : Thread nD τ).loc main_arg9)
abbrev a10 : S1024.Idx → EReal := m ((c : Thread nD τ).loc main_arg10)
abbrev a11 : S1024.Idx → EReal := m ((c : Thread nD τ).loc main_arg11)
abbrev a12 : S1024.Idx → EReal := m ((c : Thread nD τ).loc main_arg12)

/-- Reads a staged array off the host operations before the launch: the operations' results in order. -/
local macro "read_prefix" : tactic =>
  `(tactic| (dsimp only [V, V0]
             simp only [hostOps0, hostOps0_1, hostOps0_2, List.flatten_cons, List.flatten_nil, List.append_nil,
               List.cons_append, List.nil_append]
             after_results
             rfl))

/-! ## The tokens -/

/-- The 16384 rows are the input's tokens in order. -/
theorem tokens_eq : (V m c main_v0 : S16384x1024.Idx → EReal)
    = shapeCast S16384x1024 (a0 m c) shapeCasts_S8x2048x1024_S16384x1024 := by
  read_prefix

/-- Row `r` is token `(r / 2048, r mod 2048)`. -/
theorem tokens_apply (r : Fin 16384) (e : Fin 1024) :
    (V m c main_v0 : S16384x1024.Idx → EReal) (ix2 r e)
      = a0 m c (ix3 (⟨r.val / 2048, by omega⟩ : Fin 8) (⟨r.val % 2048, by omega⟩ : Fin 2048) e) := by
  rw [tokens_eq]
  refine shapeCast_apply _ _ _ _ ?_
  show (S8x2048x1024.rowMajor _).val = (S16384x1024.rowMajor _).val
  rw [Shape.rowMajor_val_three, Shape.rowMajor_val_two]
  show (r.val / 2048 * 2048 + r.val % 2048) * 1024 + e.val = r.val * 1024 + e.val
  omega

/-! ## The one-row weights -/

/-- The attention bias as one row. -/
theorem attnBias_eq : (V m c main_v7 : S1x1024.Idx → EReal) = shapeCast S1x1024 (a4 m c) shapeCasts_S1024_S1x1024 := by
  read_prefix
theorem attnBias_apply (e : Fin 1024) : (V m c main_v7 : S1x1024.Idx → EReal) (ix2 (0 : Fin 1) e) = a4 m c (ix1 e) := by
  rw [attnBias_eq]; exact shapeCast_a_1a_apply _ _ 0 e

/-- The first gain as one row. -/
theorem gain1_eq : (V m c main_v8 : S1x1024.Idx → EReal) = shapeCast S1x1024 (a5 m c) shapeCasts_S1024_S1x1024 := by
  read_prefix
theorem gain1_apply (e : Fin 1024) : (V m c main_v8 : S1x1024.Idx → EReal) (ix2 (0 : Fin 1) e) = a5 m c (ix1 e) := by
  rw [gain1_eq]; exact shapeCast_a_1a_apply _ _ 0 e

/-- The first normalisation's bias as one row. -/
theorem bias1_eq : (V m c main_v9 : S1x1024.Idx → EReal) = shapeCast S1x1024 (a6 m c) shapeCasts_S1024_S1x1024 := by
  read_prefix
theorem bias1_apply (e : Fin 1024) : (V m c main_v9 : S1x1024.Idx → EReal) (ix2 (0 : Fin 1) e) = a6 m c (ix1 e) := by
  rw [bias1_eq]; exact shapeCast_a_1a_apply _ _ 0 e

/-- The hidden layer's bias as one row. -/
theorem hiddenBias_eq : (V m c main_v10 : S1x4096.Idx → EReal) = shapeCast S1x4096 (a8 m c) shapeCasts_S4096_S1x4096 := by
  read_prefix
theorem hiddenBias_apply (e : Fin 4096) : (V m c main_v10 : S1x4096.Idx → EReal) (ix2 (0 : Fin 1) e) = a8 m c (ix1 e) := by
  rw [hiddenBias_eq]; exact shapeCast_a_1a_apply _ _ 0 e

/-- The feed-forward output bias as one row. -/
theorem outBias_eq : (V m c main_v11 : S1x1024.Idx → EReal) = shapeCast S1x1024 (a10 m c) shapeCasts_S1024_S1x1024 := by
  read_prefix
theorem outBias_apply (e : Fin 1024) : (V m c main_v11 : S1x1024.Idx → EReal) (ix2 (0 : Fin 1) e) = a10 m c (ix1 e) := by
  rw [outBias_eq]; exact shapeCast_a_1a_apply _ _ 0 e

/-- The second gain as one row. -/
theorem gain2_eq : (V m c main_v12 : S1x1024.Idx → EReal) = shapeCast S1x1024 (a11 m c) shapeCasts_S1024_S1x1024 := by
  read_prefix
theorem gain2_apply (e : Fin 1024) : (V m c main_v12 : S1x1024.Idx → EReal) (ix2 (0 : Fin 1) e) = a11 m c (ix1 e) := by
  rw [gain2_eq]; exact shapeCast_a_1a_apply _ _ 0 e

/-- The second normalisation's bias as one row. -/
theorem bias2_eq : (V m c main_v13 : S1x1024.Idx → EReal) = shapeCast S1x1024 (a12 m c) shapeCasts_S1024_S1x1024 := by
  read_prefix
theorem bias2_apply (e : Fin 1024) : (V m c main_v13 : S1x1024.Idx → EReal) (ix2 (0 : Fin 1) e) = a12 m c (ix1 e) := by
  rw [bias2_eq]; exact shapeCast_a_1a_apply _ _ 0 e

/-! ## The rotation row -/

/-- The rotation row: the 64 cosines, as one row, repeated over 16 rows, flattened to 1024, as one row again. -/
theorem wireRow_eq : (V m c main_v6 : S1x1024.Idx → EReal)
    = shapeCast S1x1024 (shapeCast S1024 (broadcastInDim S16x64 ![0, 1] bcast_S1x64_S16x64_0_1
        (shapeCast S1x64 (Host.cos (F := Ideal) (φ := .f32) (a2 m c)) shapeCasts_S64_S1x64))
        shapeCasts_S16x64_S1024) shapeCasts_S1024_S1x1024 := by
  read_prefix

/-- Feature `e` of the rotation row is the cosine of angle `e mod 64`. -/
theorem wireRow_apply (e : Fin 1024) :
    (V m c main_v6 : S1x1024.Idx → EReal) (ix2 (0 : Fin 1) e)
      = TokenSpec.wire (fun d => a2 m c (ix1 d)) e := by
  rw [wireRow_eq, shapeCast_a_1a_apply _ _ 0 e]
  have hflat : ∀ (X : S16x64.Idx → EReal), shapeCast S1024 X shapeCasts_S16x64_S1024 (ix1 e)
      = X (ix2 (⟨e.val / 64, by omega⟩ : Fin 16) (⟨e.val % 64, Nat.mod_lt _ (by norm_num)⟩ : Fin 64)) := fun X => by
    refine shapeCast_apply _ _ _ _ ?_
    rw [Shape.rowMajor_val_two, Shape.rowMajor_val_one]
    show e.val / 64 * 64 + e.val % 64 = e.val
    omega
  rw [hflat]
  have hrep : ∀ (Y : S1x64.Idx → EReal) (a : Fin 16) (d : Fin 64),
      broadcastInDim S16x64 ![0, 1] bcast_S1x64_S16x64_0_1 Y (ix2 a d) = Y (ix2 (0 : Fin 1) d) := fun Y a d => by
    refine broadcastInDim_apply _ _ Y (ix2 a d) (ix2 (0 : Fin 1) d) fun ax => ?_
    match ax with
    | ⟨0, _⟩ => rfl
    | ⟨1, _⟩ => rfl
  rw [hrep, shapeCast_a_1a_apply _ _ 0]
  rfl

/-! ## The padded weight -/

/-- The first feed-forward weight, padded on the right with 96 columns of the converted integer zero. -/
theorem padded_eq : (V m c main_v1 : S4096x128.Idx → EReal)
    = pad S4096x128 ![0, 0] ![0, 96] ![0, 0] (a7 m c)
        (sitofp (F := Ideal) .f32 (constantI S_ 32 0#32)) pads_S4096x32_S4096x128_000_0960 h_S_ := by
  read_prefix

/-- Its first 32 columns are the weight's, the rest zero. -/
theorem padded_apply (f : Fin 4096) (k : Fin 128) :
    (V m c main_v1 : S4096x128.Idx → EReal) (ix2 f k)
      = (if hk : k.val < 32 then a7 m c (ix2 f (⟨k.val, hk⟩ : Fin 32)) else (0 : EReal)) := by
  rw [padded_eq]
  by_cases hk : k.val < 32
  · rw [dif_pos hk]
    refine pad_apply_of_inside _ _ _ _ _ _ _ (ix2 f k) (ix2 f (⟨k.val, hk⟩ : Fin 32)) fun a => ?_
    match a with
    | ⟨0, _⟩ => show f.val = 0 + f.val * (0 + 1); omega
    | ⟨1, _⟩ => show k.val = 0 + k.val * (0 + 1); omega
  · rw [dif_neg hk]
    refine (pad_apply_of_not_inside _ _ _ _ _ _ _ (ix2 f k) (1 : Fin 2) ?_).trans ?_
    · show ¬(0 ≤ k.val ∧ (k.val - 0) % (0 + 1) = 0 ∧ (k.val - 0) / (0 + 1) < 32)
      omega
    · show FloatOps.sitofp (F := Ideal) .f32 (0#32 : BitVec 32) = 0
      simp [FloatOps.sitofp]

end Cert.Operands

end
-- ==== Proof.BodyOps.lean ====
/-
  The body's three matrix products, read at an entry given by coordinates.

  Each product contracts the SECOND axis of both operands (the weights are stored output-feature by input-feature, so
  no transpose is ever formed): the entry `(p, f)` of `A · Bᵀ` into a zero accumulator is `∑ e, A (p, e) * B (f, e)`.
  At the extended reals this is exact whatever the precision attribute says.  The proof is the same for the three
  shapes: the result's two coordinates go to the operands' first axes, the contraction index to their second axes.
-/
import proofs.«179164_j65481071407980_2_alg».proof.Proof.Gen.KernelIdeal.Skeleton
import Idealize.ShloMosaic.Lib.Pipeline.Value
import Idealize.ShloMosaic.Lib.ValueIdx
import Idealize.ShloMosaic.PureOps.Ideal.Laws

open scoped BigOperators

noncomputable section

namespace Cert.BodyOps

open Idealize.ShloMosaic Idealize.ShloMosaic.ValueIdx Cert.KernelIdeal

/-- The projection and the recombination: `[256, 1024] · [1024, 1024]ᵀ`. -/
theorem matmul_square (l : FVec Ideal S256x1024 .f32) (r : FVec Ideal S1024x1024 .f32) (p : Fin 256) (f : Fin 1024) :
    matmul dot_S256x1024_S1024x1024_S256x1024_1_1_0_0_n_n (some .fp32) l r (constant (F := Ideal) S256x1024 .f32 0x00000000#32) (ix2 p f)
      = ∑ e : Fin 1024, l (ix2 p e) * r (ix2 f e) := by
  have l0 : ∀ (j : S256x1024.Idx) (k : dot_S256x1024_S1024x1024_S256x1024_1_1_0_0_n_n.contr.Idx), (dot_S256x1024_S1024x1024_S256x1024_1_1_0_0_n_n.lhsIdx j k 0).val = (j 0).val := fun j k => by
    unfold DotDims.lhsIdx
    rw [dif_neg (show ¬(0 : Fin S256x1024.rank) ∈ dot_S256x1024_S1024x1024_S256x1024_1_1_0_0_n_n.lhsBatch by decide),
      dif_pos (show (0 : Fin S256x1024.rank) ∈ dot_S256x1024_S1024x1024_S256x1024_1_1_0_0_n_n.lhsNonContracting by decide)]
    rfl
  have r0 : ∀ (j : S256x1024.Idx) (k : dot_S256x1024_S1024x1024_S256x1024_1_1_0_0_n_n.contr.Idx), (dot_S256x1024_S1024x1024_S256x1024_1_1_0_0_n_n.rhsIdx j k 0).val = (j 1).val := fun j k => by
    unfold DotDims.rhsIdx
    rw [dif_neg (show ¬(0 : Fin S1024x1024.rank) ∈ dot_S256x1024_S1024x1024_S256x1024_1_1_0_0_n_n.rhsBatch by decide),
      dif_pos (show (0 : Fin S1024x1024.rank) ∈ dot_S256x1024_S1024x1024_S256x1024_1_1_0_0_n_n.rhsNonContracting by decide)]
    rfl
  simp only [matmul]
  rw [Ideal.matmul_constant_zero_apply, ← Equiv.sum_comp (contrEquiv1 dot_S256x1024_S1024x1024_S256x1024_1_1_0_0_n_n 1024 rfl rfl).symm]
  refine Finset.sum_congr rfl fun e _ => ?_
  have hl : dot_S256x1024_S1024x1024_S256x1024_1_1_0_0_n_n.lhsIdx (ix2 p f) ((contrEquiv1 dot_S256x1024_S1024x1024_S256x1024_1_1_0_0_n_n 1024 rfl rfl).symm e) = ix2 p e := by
    funext a; apply Fin.ext
    match a with
    | ⟨0, _⟩ => exact l0 _ _
    | ⟨1, _⟩ => exact (dot_S256x1024_S1024x1024_S256x1024_1_1_0_0_n_n.lhsIdx_val_of_single rfl _ _).trans (contrEquiv1_symm_val _ _ _ _ _)
  have hr : dot_S256x1024_S1024x1024_S256x1024_1_1_0_0_n_n.rhsIdx (ix2 p f) ((contrEquiv1 dot_S256x1024_S1024x1024_S256x1024_1_1_0_0_n_n 1024 rfl rfl).symm e) = ix2 f e := by
    funext a; apply Fin.ext
    match a with
    | ⟨0, _⟩ => exact r0 _ _
    | ⟨1, _⟩ => exact (dot_S256x1024_S1024x1024_S256x1024_1_1_0_0_n_n.rhsIdx_val_of_single rfl _ _).trans (contrEquiv1_symm_val _ _ _ _ _)
  rw [hl, hr]

/-- The feed-forward layer's first product, over the 128 padded inputs: `[256, 128] · [4096, 128]ᵀ`. -/
theorem matmul_expand (l : FVec Ideal S256x128 .f32) (r : FVec Ideal S4096x128 .f32) (p : Fin 256) (f : Fin 4096) :
    matmul dot_S256x128_S4096x128_S256x4096_1_1_0_0_n_n (some .fp32) l r (constant (F := Ideal) S256x4096 .f32 0x00000000#32) (ix2 p f)
      = ∑ e : Fin 128, l (ix2 p e) * r (ix2 f e) := by
  have l0 : ∀ (j : S256x4096.Idx) (k : dot_S256x128_S4096x128_S256x4096_1_1_0_0_n_n.contr.Idx), (dot_S256x128_S4096x128_S256x4096_1_1_0_0_n_n.lhsIdx j k 0).val = (j 0).val := fun j k => by
    unfold DotDims.lhsIdx
    rw [dif_neg (show ¬(0 : Fin S256x128.rank) ∈ dot_S256x128_S4096x128_S256x4096_1_1_0_0_n_n.lhsBatch by decide),
      dif_pos (show (0 : Fin S256x128.rank) ∈ dot_S256x128_S4096x128_S256x4096_1_1_0_0_n_n.lhsNonContracting by decide)]
    rfl
  have r0 : ∀ (j : S256x4096.Idx) (k : dot_S256x128_S4096x128_S256x4096_1_1_0_0_n_n.contr.Idx), (dot_S256x128_S4096x128_S256x4096_1_1_0_0_n_n.rhsIdx j k 0).val = (j 1).val := fun j k => by
    unfold DotDims.rhsIdx
    rw [dif_neg (show ¬(0 : Fin S4096x128.rank) ∈ dot_S256x128_S4096x128_S256x4096_1_1_0_0_n_n.rhsBatch by decide),
      dif_pos (show (0 : Fin S4096x128.rank) ∈ dot_S256x128_S4096x128_S256x4096_1_1_0_0_n_n.rhsNonContracting by decide)]
    rfl
  simp only [matmul]
  rw [Ideal.matmul_constant_zero_apply, ← Equiv.sum_comp (contrEquiv1 dot_S256x128_S4096x128_S256x4096_1_1_0_0_n_n 128 rfl rfl).symm]
  refine Finset.sum_congr rfl fun e _ => ?_
  have hl : dot_S256x128_S4096x128_S256x4096_1_1_0_0_n_n.lhsIdx (ix2 p f) ((contrEquiv1 dot_S256x128_S4096x128_S256x4096_1_1_0_0_n_n 128 rfl rfl).symm e) = ix2 p e := by
    funext a; apply Fin.ext
    match a with
    | ⟨0, _⟩ => exact l0 _ _
    | ⟨1, _⟩ => exact (dot_S256x128_S4096x128_S256x4096_1_1_0_0_n_n.lhsIdx_val_of_single rfl _ _).trans (contrEquiv1_symm_val _ _ _ _ _)
  have hr : dot_S256x128_S4096x128_S256x4096_1_1_0_0_n_n.rhsIdx (ix2 p f) ((contrEquiv1 dot_S256x128_S4096x128_S256x4096_1_1_0_0_n_n 128 rfl rfl).symm e) = ix2 f e := by
    funext a; apply Fin.ext
    match a with
    | ⟨0, _⟩ => exact r0 _ _
    | ⟨1, _⟩ => exact (dot_S256x128_S4096x128_S256x4096_1_1_0_0_n_n.rhsIdx_val_of_single rfl _ _).trans (contrEquiv1_symm_val _ _ _ _ _)
  rw [hl, hr]

/-- The feed-forward layer's second product: `[256, 4096] · [1024, 4096]ᵀ`. -/
theorem matmul_contract (l : FVec Ideal S256x4096 .f32) (r : FVec Ideal S1024x4096 .f32) (p : Fin 256) (f : Fin 1024) :
    matmul dot_S256x4096_S1024x4096_S256x1024_1_1_0_0_n_n (some .fp32) l r (constant (F := Ideal) S256x1024 .f32 0x00000000#32) (ix2 p f)
      = ∑ e : Fin 4096, l (ix2 p e) * r (ix2 f e) := by
  have l0 : ∀ (j : S256x1024.Idx) (k : dot_S256x4096_S1024x4096_S256x1024_1_1_0_0_n_n.contr.Idx), (dot_S256x4096_S1024x4096_S256x1024_1_1_0_0_n_n.lhsIdx j k 0).val = (j 0).val := fun j k => by
    unfold DotDims.lhsIdx
    rw [dif_neg (show ¬(0 : Fin S256x4096.rank) ∈ dot_S256x4096_S1024x4096_S256x1024_1_1_0_0_n_n.lhsBatch by decide),
      dif_pos (show (0 : Fin S256x4096.rank) ∈ dot_S256x4096_S1024x4096_S256x1024_1_1_0_0_n_n.lhsNonContracting by decide)]
    rfl
  have r0 : ∀ (j : S256x1024.Idx) (k : dot_S256x4096_S1024x4096_S256x1024_1_1_0_0_n_n.contr.Idx), (dot_S256x4096_S1024x4096_S256x1024_1_1_0_0_n_n.rhsIdx j k 0).val = (j 1).val := fun j k => by
    unfold DotDims.rhsIdx
    rw [dif_neg (show ¬(0 : Fin S1024x4096.rank) ∈ dot_S256x4096_S1024x4096_S256x1024_1_1_0_0_n_n.rhsBatch by decide),
      dif_pos (show (0 : Fin S1024x4096.rank) ∈ dot_S256x4096_S1024x4096_S256x1024_1_1_0_0_n_n.rhsNonContracting by decide)]
    rfl
  simp only [matmul]
  rw [Ideal.matmul_constant_zero_apply, ← Equiv.sum_comp (contrEquiv1 dot_S256x4096_S1024x4096_S256x1024_1_1_0_0_n_n 4096 rfl rfl).symm]
  refine Finset.sum_congr rfl fun e _ => ?_
  have hl : dot_S256x4096_S1024x4096_S256x1024_1_1_0_0_n_n.lhsIdx (ix2 p f) ((contrEquiv1 dot_S256x4096_S1024x4096_S256x1024_1_1_0_0_n_n 4096 rfl rfl).symm e) = ix2 p e := by
    funext a; apply Fin.ext
    match a with
    | ⟨0, _⟩ => exact l0 _ _
    | ⟨1, _⟩ => exact (dot_S256x4096_S1024x4096_S256x1024_1_1_0_0_n_n.lhsIdx_val_of_single rfl _ _).trans (contrEquiv1_symm_val _ _ _ _ _)
  have hr : dot_S256x4096_S1024x4096_S256x1024_1_1_0_0_n_n.rhsIdx (ix2 p f) ((contrEquiv1 dot_S256x4096_S1024x4096_S256x1024_1_1_0_0_n_n 4096 rfl rfl).symm e) = ix2 f e := by
    funext a; apply Fin.ext
    match a with
    | ⟨0, _⟩ => exact r0 _ _
    | ⟨1, _⟩ => exact (dot_S256x4096_S1024x4096_S256x1024_1_1_0_0_n_n.rhsIdx_val_of_single rfl _ _).trans (contrEquiv1_symm_val _ _ _ _ _)
  rw [hl, hr]

end Cert.BodyOps

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.BodyRows.lean ====
/-
  The body's arithmetic, piece by piece.

  The body computes on a block of 256 tokens.  Its value is cut here into the whole-block pieces that the two
  normalisations share: one weight row laid over the 256 rows (`overRows`), the column of row means (`meanCol`), the
  block minus its row means (`centred`) and the normalised block before the gain (`unitBlock`).  The body's three
  payloads ARE compositions of these pieces with the two layers (`afterAttention`, `afterFeedForward`), by
  unfolding.  Each piece is then read at an entry `(p, q)`: it depends on row `p` of its operand only, and is the
  specification's row function of that row.
-/
import proofs.«179164_j65481071407980_2_alg».proof.Proof.Gen.KernelIdeal.Skeleton
import proofs.«179164_j65481071407980_2_alg».proof.Proof.BodyOps
import proofs.«179164_j65481071407980_2_alg».proof.Proof.LibKeepdims
import proofs.«179164_j65481071407980_2_alg».proof.Proof.TokenSpec
import Idealize.ShloMosaic.Lib.ValueLayout

open scoped BigOperators

noncomputable section

namespace Cert.BodyRows

open Idealize.ShloMosaic Idealize.ShloMosaic.ValueIdx Cert.KernelIdeal Cert.KernelIdeal.Gen Cert.TokenSpec

/-! ## The pieces, as the body spells them -/

section Pieces

variable {F : FTy → Type} [FloatOps F]

/-- One row of 1024 weights laid over the block's 256 rows. -/
def overRows (r : FVec F S1x1024 .f32) : FVec F S256x1024 .f32 :=
  broadcastTo S256x1024 (shapeCast S1x1024 r shapeCasts_S1x1024_S1x1024) broadcasts_S1x1024_S256x1024

/-- The column of row means: the row sums, as a column, over the row length. -/
def meanCol (v : FVec F S256x1024 .f32) : FVec F S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- The block minus its row means. -/
def centred (v : FVec F S256x1024 .f32) : FVec F S256x1024 .f32 :=
  subf v (broadcastTo S256x1024 (meanCol v) broadcasts_S256x1_S256x1024)

/-- The normalised block before the gain: the centred block times the reciprocal root of the row variance plus ε. -/
def unitBlock (v : FVec F S256x1024 .f32) : FVec F S256x1024 .f32 :=
  mulf (centred v)
    (broadcastTo S256x1024
      (rsqrt (addf (meanCol (mulf (centred v) (centred v))) (broadcast S256x1 (Scalar.ofBits .f32 0x3727C5AC#32))))
      broadcasts_S256x1_S256x1024)

/-- The block after the attention layer and the residual sum: `x + (cos (x Wqᵀ) ⊙ w) Wcᵀ + bc`. -/
def afterAttention (x0 : FVec F S256x1024 .f32) (w1 : FVec F S1024x1024 .f32) (r2 : FVec F S1x1024 .f32)
    (w3 : FVec F S1024x1024 .f32) (b4 : FVec F S1x1024 .f32) : FVec F S256x1024 .f32 :=
  addf (shapeCast S256x1024 x0 shapeCasts_S256x1024_S256x1024)
    (addf (matmul dot_S256x1024_S1024x1024_S256x1024_1_1_0_0_n_n (some .fp32)
        (mulf (cos (matmul dot_S256x1024_S1024x1024_S256x1024_1_1_0_0_n_n (some .fp32)
          (shapeCast S256x1024 x0 shapeCasts_S256x1024_S256x1024) w1 (constant S256x1024 .f32 0x00000000#32))) (overRows r2))
        w3 (constant S256x1024 .f32 0x00000000#32))
      (overRows b4))

/-- The hidden layer on the block: the 128 leading features' cosines against the padded weights, plus the bias,
    clamped below at zero. -/
def hiddenBlock (h : FVec F S256x1024 .f32) (w7 : FVec F S4096x128 .f32) (c8 : FVec F S1x4096 .f32) : FVec F S256x4096 .f32 :=
  maximumf
    (addf (matmul dot_S256x128_S4096x128_S256x4096_1_1_0_0_n_n (some .fp32)
        (cos (extractStridedSlice S256x128 ![0, 0] h slices_S256x1024_o0_0_S256x128))
        (shapeCast S4096x128 w7 shapeCasts_S4096x128_S4096x128) (constant S256x4096 .f32 0x00000000#32))
      (broadcastTo S256x4096 (shapeCast S1x4096 c8 shapeCasts_S1x4096_S1x4096) broadcasts_S1x4096_S256x4096))
    (broadcast S256x4096 (Scalar.ofBits .f32 0x00000000#32))

/-- The block after the feed-forward layer and the residual sum: `h + hid W₂ᵀ + c₂`. -/
def afterFeedForward (h : FVec F S256x1024 .f32) (w7 : FVec F S4096x128 .f32) (c8 : FVec F S1x4096 .f32)
    (w9 : FVec F S1024x4096 .f32) (c10 : FVec F S1x1024 .f32) : FVec F S256x1024 .f32 :=
  addf h
    (addf (matmul dot_S256x4096_S1024x4096_S256x1024_1_1_0_0_n_n (some .fp32) (hiddenBlock h w7 c8) w9
        (constant S256x1024 .f32 0x00000000#32))
      (overRows c10))

/-- The first payload: the first normalisation up to its gain. -/
theorem pay2_eq (x0 : FVec F S256x1024 .f32) (w1 : FVec F S1024x1024 .f32) (r2 : FVec F S1x1024 .f32)
    (w3 : FVec F S1024x1024 .f32) (b4 g5 : FVec F S1x1024 .f32) :
    k0_pay2 x0 w1 r2 w3 b4 g5 = mulf (unitBlock (afterAttention x0 w1 r2 w3 b4)) (overRows g5) := rfl

/-- The second payload: the first normalisation's bias, the feed-forward layer, and the second normalisation up to
    its gain. -/
theorem pay3_eq (u : FVec F S256x1024 .f32) (b6 : FVec F S1x1024 .f32) (w7 : FVec F S4096x128 .f32)
    (c8 : FVec F S1x4096 .f32) (w9 : FVec F S1024x4096 .f32) (c10 : FVec F S1x1024 .f32) :
    k0_pay3 u b6 w7 c8 w9 c10 = unitBlock (afterFeedForward (addf u (overRows b6)) w7 c8 w9 c10) := rfl

/-- The last payload: the second normalisation's gain and bias. -/
theorem pay1_eq (u : FVec F S256x1024 .f32) (g11 b12 : FVec F S1x1024 .f32) :
    k0_pay1 u (k0_pay4 g11) b12 = addf (mulf u (overRows g11)) (overRows b12) := rfl

end Pieces

/-! ## The pieces at an entry, at the extended reals -/

section Read

theorem cos_apply {s : Shape} (v : FVec Ideal s .f32) (i : s.Idx) : cos v i = Ideal.cos (v i) := rfl
theorem rsqrt_apply {s : Shape} (v : FVec Ideal s .f32) (i : s.Idx) : rsqrt v i = Ideal.rsqrt (v i) := rfl

/-- A weight row laid over the rows reads, at `(p, q)`, the row's entry `q`. -/
theorem overRows_apply (r : FVec Ideal S1x1024 .f32) (p : Fin 256) (q : Fin 1024) :
    overRows r (ix2 p q) = r (ix2 (0 : Fin 1) q) := by
  unfold overRows
  rw [shapeCast_self]
  exact broadcastTo_1b_ab_apply r _ p q

/-- The mean column at row `p` is the mean of row `p`. -/
theorem meanCol_apply (v : FVec Ideal S256x1024 .f32) (p : Fin 256) :
    meanCol v (ix2 p (0 : Fin 1)) = mean (fun e => v (ix2 p e)) := by
  unfold meanCol mean rowLen
  rw [divf_apply, LibKeepdims.shapeCast_a_a1_apply]
  exact congrArg₂ Ideal.div (LibKeepdims.multiReduction_add_rows (a := 256) (b := 1024) v _ _ _ _ p) rfl

/-- The centred block at `(p, q)`: the entry minus its row's mean. -/
theorem centred_apply (v : FVec Ideal S256x1024 .f32) (p : Fin 256) (q : Fin 1024) :
    centred v (ix2 p q) = v (ix2 p q) - mean (fun e => v (ix2 p e)) := by
  unfold centred
  rw [subf_apply, LibKeepdims.broadcastTo_a1_ab_apply, meanCol_apply]

/-- The normalised block at `(p, q)` is the normalised row `p` at `q`. -/
theorem unitBlock_apply (v : FVec Ideal S256x1024 .f32) (p : Fin 256) (q : Fin 1024) :
    unitBlock v (ix2 p q) = unit (fun e => v (ix2 p e)) q := by
  unfold unitBlock
  rw [mulf_apply, centred_apply, LibKeepdims.broadcastTo_a1_ab_apply, rsqrt_apply, addf_apply, meanCol_apply]
  simp only [mulf_apply, centred_apply]
  rfl

/-- What it means for the staged blocks to hold the weights `P`: each weight array at its coordinates, the rotation
    row the 64 cosines repeated along the row, and the padded first feed-forward weight its 32 true columns followed
    by zeros. -/
structure Holds (P : Params) (w1 : FVec Ideal S1024x1024 .f32) (r2 : FVec Ideal S1x1024 .f32) (w3 : FVec Ideal S1024x1024 .f32)
    (b4 g5 b6 : FVec Ideal S1x1024 .f32) (w7 : FVec Ideal S4096x128 .f32) (c8 : FVec Ideal S1x4096 .f32)
    (w9 : FVec Ideal S1024x4096 .f32) (c10 g11 b12 : FVec Ideal S1x1024 .f32) : Prop where
  Wq : ∀ f e, w1 (ix2 f e) = P.Wq f e
  wire : ∀ e, r2 (ix2 (0 : Fin 1) e) = TokenSpec.wire P.ry e
  Wc : ∀ f e, w3 (ix2 f e) = P.Wc f e
  bc : ∀ e, b4 (ix2 (0 : Fin 1) e) = P.bc e
  g1 : ∀ e, g5 (ix2 (0 : Fin 1) e) = P.g1 e
  b1 : ∀ e, b6 (ix2 (0 : Fin 1) e) = P.b1 e
  W1 : ∀ f (k : Fin 128), w7 (ix2 f k) = if hk : k.val < 32 then P.W1 f ⟨k.val, hk⟩ else 0
  c1 : ∀ f, c8 (ix2 (0 : Fin 1) f) = P.c1 f
  W2 : ∀ j f, w9 (ix2 j f) = P.W2 j f
  c2 : ∀ j, c10 (ix2 (0 : Fin 1) j) = P.c2 j
  g2 : ∀ j, g11 (ix2 (0 : Fin 1) j) = P.g2 j
  b2 : ∀ j, b12 (ix2 (0 : Fin 1) j) = P.b2 j

/-- After the attention layer, entry `(p, q)` is row `p` plus its attention image, at `q`. -/
theorem afterAttention_apply (P : Params) (x0 : FVec Ideal S256x1024 .f32) (w1 : FVec Ideal S1024x1024 .f32)
    (r2 : FVec Ideal S1x1024 .f32) (w3 : FVec Ideal S1024x1024 .f32) (b4 : FVec Ideal S1x1024 .f32)
    (hq : ∀ f e, w1 (ix2 f e) = P.Wq f e) (hw : ∀ e, r2 (ix2 (0 : Fin 1) e) = TokenSpec.wire P.ry e)
    (hc : ∀ f e, w3 (ix2 f e) = P.Wc f e) (hb : ∀ e, b4 (ix2 (0 : Fin 1) e) = P.bc e) (p : Fin 256) (q : Fin 1024) :
    afterAttention x0 w1 r2 w3 b4 (ix2 p q)
      = x0 (ix2 p q) + affine P.Wc P.bc (attnAct P.Wq P.ry fun e => x0 (ix2 p e)) q := by
  unfold afterAttention affine attnAct
  simp only [addf_apply, shapeCast_self, BodyOps.matmul_square, mulf_apply, cos_apply, overRows_apply, hq, hw, hc, hb]

/-- The 128-column cut of the block reads the block's own leading columns. -/
theorem lead_apply (h : FVec Ideal S256x1024 .f32) (p : Fin 256) (k : Fin 128) :
    extractStridedSlice S256x128 ![0, 0] h slices_S256x1024_o0_0_S256x128 (ix2 p k) = h (ix2 p ⟨k.val, by omega⟩) :=
  slice2_axis1_apply 0 h _ p k ⟨k.val, by omega⟩ (Nat.zero_add _).symm

/-- The bias row of the hidden layer laid over the rows. -/
theorem overRows4096_apply (c8 : FVec Ideal S1x4096 .f32) (p : Fin 256) (f : Fin 4096) :
    broadcastTo S256x4096 (shapeCast S1x4096 c8 shapeCasts_S1x4096_S1x4096) broadcasts_S1x4096_S256x4096 (ix2 p f)
      = c8 (ix2 (0 : Fin 1) f) := by
  rw [shapeCast_self]
  exact broadcastTo_1b_ab_apply c8 _ p f

/-- The hidden layer at `(p, f)`: the padded contraction over 128 inputs is the true one over 32, the weights beyond
    column 32 being zero. -/
theorem hiddenBlock_apply (P : Params) (h : FVec Ideal S256x1024 .f32) (w7 : FVec Ideal S4096x128 .f32)
    (c8 : FVec Ideal S1x4096 .f32)
    (hW : ∀ f (k : Fin 128), w7 (ix2 f k) = if hk : k.val < 32 then P.W1 f ⟨k.val, hk⟩ else 0)
    (hc : ∀ f, c8 (ix2 (0 : Fin 1) f) = P.c1 f) (p : Fin 256) (f : Fin 4096) :
    hiddenBlock h w7 c8 (ix2 p f) = TokenSpec.hidden P.W1 P.c1 (fun e => h (ix2 p e)) f := by
  unfold hiddenBlock TokenSpec.hidden affine ffnAct floor0
  rw [maximumf_apply, addf_apply, BodyOps.matmul_expand, overRows4096_apply, hc]
  simp only [cos_apply, lead_apply, shapeCast_self]
  rw [contraction_zero_tail (fun k : Fin 128 => Ideal.cos (h (ix2 p ⟨k.val, by omega⟩))) (fun k => w7 (ix2 f k))
    (fun k hk => by rw [hW, dif_neg (by omega)])]
  refine congrArg₂ max (congrArg (· + P.c1 f) (Finset.sum_congr rfl fun k _ => ?_)) rfl
  rw [hW, dif_pos k.isLt]

/-- After the feed-forward layer, entry `(p, q)` is row `p` plus its feed-forward image, at `q`. -/
theorem afterFeedForward_apply (P : Params) (h : FVec Ideal S256x1024 .f32) (w7 : FVec Ideal S4096x128 .f32)
    (c8 : FVec Ideal S1x4096 .f32) (w9 : FVec Ideal S1024x4096 .f32) (c10 : FVec Ideal S1x1024 .f32)
    (hW : ∀ f (k : Fin 128), w7 (ix2 f k) = if hk : k.val < 32 then P.W1 f ⟨k.val, hk⟩ else 0)
    (hc : ∀ f, c8 (ix2 (0 : Fin 1) f) = P.c1 f) (hW2 : ∀ j f, w9 (ix2 j f) = P.W2 j f)
    (hc2 : ∀ j, c10 (ix2 (0 : Fin 1) j) = P.c2 j) (p : Fin 256) (q : Fin 1024) :
    afterFeedForward h w7 c8 w9 c10 (ix2 p q)
      = h (ix2 p q) + affine P.W2 P.c2 (TokenSpec.hidden P.W1 P.c1 fun e => h (ix2 p e)) q := by
  unfold afterFeedForward affine
  simp only [addf_apply, BodyOps.matmul_contract, overRows_apply, hiddenBlock_apply P h w7 c8 hW hc, hW2, hc2]

/-- THE BODY ON A BLOCK: the stored block at `(p, q)` is the block's row `p` through the whole token function, at `q`. -/
theorem body_apply (P : Params) (x0 : FVec Ideal S256x1024 .f32) (w1 : FVec Ideal S1024x1024 .f32) (r2 : FVec Ideal S1x1024 .f32)
    (w3 : FVec Ideal S1024x1024 .f32) (b4 g5 b6 : FVec Ideal S1x1024 .f32) (w7 : FVec Ideal S4096x128 .f32)
    (c8 : FVec Ideal S1x4096 .f32) (w9 : FVec Ideal S1024x4096 .f32) (c10 g11 b12 : FVec Ideal S1x1024 .f32)
    (H : Holds P w1 r2 w3 b4 g5 b6 w7 c8 w9 c10 g11 b12) (p : Fin 256) (q : Fin 1024) :
    k0_pay1 (F := Ideal) (k0_pay3 (k0_pay2 x0 w1 r2 w3 b4 g5) b6 w7 c8 w9 c10) (k0_pay4 g11) b12 (ix2 p q)
      = token P (fun e => x0 (ix2 p e)) q := by
  have hmid : ∀ e, addf (mulf (unitBlock (afterAttention x0 w1 r2 w3 b4)) (overRows g5)) (overRows b6) (ix2 p e)
      = mid P (fun e => x0 (ix2 p e)) e := fun e => by
    rw [addf_apply, mulf_apply, unitBlock_apply, overRows_apply, overRows_apply, H.g1, H.b1]
    unfold mid lnorm
    rw [funext fun f => afterAttention_apply P x0 w1 r2 w3 b4 H.Wq H.wire H.Wc H.bc p f]
  rw [pay2_eq, pay3_eq, pay1_eq, addf_apply, mulf_apply, unitBlock_apply, overRows_apply, overRows_apply, H.g2, H.b2]
  unfold token lnorm
  rw [funext fun j => afterFeedForward_apply P _ w7 c8 w9 c10 H.W1 H.c1 H.W2 H.c2 p j]
  simp only [hmid]

end Read

end Cert.BodyRows

end
-- ==== Proof.ResultRows.lean ====
/-
  The kernel's result before the last re-laying: 16384 rows, row `r` the token function of token
  `(r / 2048, r mod 2048)` of the input, with the weights read off the arguments as launched.
-/
import proofs.«179164_j65481071407980_2_alg».proof.Proof.Operands
import proofs.«179164_j65481071407980_2_alg».proof.Proof.TokenSpec

noncomputable section

namespace Cert.ResultRows

open Idealize.ShloMosaic Idealize.ShloMosaic.TcCoe Idealize.SL.Sem Idealize.ShloMosaic.ValueIdx
open Cert.KernelIdeal Cert.TokenSpec Cert.Operands

variable (m : (ℓ : Loc nD τ sig) → Buf (Elt Ideal) ℓ)

/-- The weights, read off the twelve weight arguments as launched. -/
abbrev weights (c : Dev nD) : Params :=
  paramsOf (a1 m c) (a2 m c) (a3 m c) (a4 m c) (a5 m c) (a6 m c) (a7 m c) (a8 m c) (a9 m c) (a10 m c) (a11 m c) (a12 m c)

/-- THE RESULT ON 16384 ROWS: row `r` is the token function of token `(r / 2048, r mod 2048)` of the input. -/
def rowsOf (c : Dev nD) : S16384x1024.Idx → EReal := fun i =>
  token (weights m c)
    (fun e => a0 m c (ix3 (⟨(i 0).val / 2048, by have h : (i 0).val < 16384 := (i 0).isLt; omega⟩ : Fin 8)
      (⟨(i 0).val % 2048, Nat.mod_lt _ (by norm_num)⟩ : Fin 2048) e)) (i 1)

end Cert.ResultRows

end
-- ==== Proof.Blocks.lean ====
/-
  From blocks to the whole result.

  The launch runs 64 grid points; point `t` is handed rows `256 t … 256 t + 255` of the 16384 token rows and EVERY
  weight array whole, and writes back rows `256 t … 256 t + 255` of the result.  So what point `t` writes is the
  block of ONE whole-array function — row `r` of the result is the token function of row `r` of the input —, the 64
  blocks tile the 16384 rows, and the result array after the launch is that function.  After the launch the host
  re-lays the 16384 rows as 8 × 2048 tokens: entry `(b, s, j)` is row `2048 b + s` at `j`.
-/
import proofs.«179164_j65481071407980_2_alg».proof.Proof.Gen.KernelIdeal.Frame
import proofs.«179164_j65481071407980_2_alg».proof.Proof.Operands
import proofs.«179164_j65481071407980_2_alg».proof.Proof.BodyRows
import proofs.«179164_j65481071407980_2_alg».proof.Proof.TokenSpec
import proofs.«179164_j65481071407980_2_alg».proof.Proof.ResultRows
import Idealize.ShloMosaic.Lib.Pipeline.Value

set_option maxRecDepth 16384

noncomputable section

namespace Cert.Blocks

open Idealize.ShloMosaic Idealize.ShloMosaic.TcCoe Idealize.SL.Sem Idealize.ShloMosaic.StableHlo Idealize.ShloMosaic.ValueIdx
open Idealize.ShloMosaic.Pipeline (Dat Cfg Window)
open Cert.KernelIdeal Cert.KernelIdeal.Gen Cert.TokenSpec Cert.Operands Cert.ResultRows

variable (m : (ℓ : Loc nD τ sig) → Buf (Elt Ideal) ℓ) (ρ : Dev nD → PrngReg)

theorem offsets_zero : (![0, 0] : Fin 2 → Nat) = fun _ => 0 := funext fun a => by fin_cases a <;> rfl

/-- The token window and the result window sit at block row `t`, column block 0 (decided over the 64 points). -/
theorem index_tokens : ∀ t : Fin cfg0.N, win0_0.index t (0 : Fin 2) = t.val ∧ win0_0.index t (1 : Fin 2) = 0 :=
  (by decide +kernel : ∀ t : Fin grid0.N, _)
theorem index_result : ∀ t : Fin cfg0.N, win0_13.index t (0 : Fin 2) = t.val ∧ win0_13.index t (1 : Fin 2) = 0 :=
  (by decide +kernel : ∀ t : Fin grid0.N, _)
theorem index_w1 : ∀ t : Fin cfg0.N, win0_1.index t (0 : Fin 2) = 0 ∧ win0_1.index t (1 : Fin 2) = 0 :=
  (by decide +kernel : ∀ t : Fin grid0.N, _)
theorem index_w2 : ∀ t : Fin cfg0.N, win0_2.index t (0 : Fin 2) = 0 ∧ win0_2.index t (1 : Fin 2) = 0 :=
  (by decide +kernel : ∀ t : Fin grid0.N, _)
theorem index_w3 : ∀ t : Fin cfg0.N, win0_3.index t (0 : Fin 2) = 0 ∧ win0_3.index t (1 : Fin 2) = 0 :=
  (by decide +kernel : ∀ t : Fin grid0.N, _)
theorem index_w4 : ∀ t : Fin cfg0.N, win0_4.index t (0 : Fin 2) = 0 ∧ win0_4.index t (1 : Fin 2) = 0 :=
  (by decide +kernel : ∀ t : Fin grid0.N, _)
theorem index_w5 : ∀ t : Fin cfg0.N, win0_5.index t (0 : Fin 2) = 0 ∧ win0_5.index t (1 : Fin 2) = 0 :=
  (by decide +kernel : ∀ t : Fin grid0.N, _)
theorem index_w6 : ∀ t : Fin cfg0.N, win0_6.index t (0 : Fin 2) = 0 ∧ win0_6.index t (1 : Fin 2) = 0 :=
  (by decide +kernel : ∀ t : Fin grid0.N, _)
theorem index_w7 : ∀ t : Fin cfg0.N, win0_7.index t (0 : Fin 2) = 0 ∧ win0_7.index t (1 : Fin 2) = 0 :=
  (by decide +kernel : ∀ t : Fin grid0.N, _)
theorem index_w8 : ∀ t : Fin cfg0.N, win0_8.index t (0 : Fin 2) = 0 ∧ win0_8.index t (1 : Fin 2) = 0 :=
  (by decide +kernel : ∀ t : Fin grid0.N, _)
theorem index_w9 : ∀ t : Fin cfg0.N, win0_9.index t (0 : Fin 2) = 0 ∧ win0_9.index t (1 : Fin 2) = 0 :=
  (by decide +kernel : ∀ t : Fin grid0.N, _)
theorem index_w10 : ∀ t : Fin cfg0.N, win0_10.index t (0 : Fin 2) = 0 ∧ win0_10.index t (1 : Fin 2) = 0 :=
  (by decide +kernel : ∀ t : Fin grid0.N, _)
theorem index_w11 : ∀ t : Fin cfg0.N, win0_11.index t (0 : Fin 2) = 0 ∧ win0_11.index t (1 : Fin 2) = 0 :=
  (by decide +kernel : ∀ t : Fin grid0.N, _)
theorem index_w12 : ∀ t : Fin cfg0.N, win0_12.index t (0 : Fin 2) = 0 ∧ win0_12.index t (1 : Fin 2) = 0 :=
  (by decide +kernel : ∀ t : Fin grid0.N, _)

/-! ## The blocks a point is handed -/

/-- Every weight window sits at block (0, 0) and its block is the whole array: the block's entry `(i, j)` is the
    array's. -/
theorem block1_apply (c : Dev nD) (t : Fin cfg0.N) (i : Fin 1024) (j : Fin 1024) :
    iblk m c 1 t (ix2 i j) = (V m c main_arg1 : S1024x1024.Idx → EReal) (ix2 i j) := by
  obtain ⟨e0, e1⟩ := index_w1 t
  show (V m c main_arg1 : S1024x1024.Idx → EReal) (((cfg0.win 1).blk t).view.emb (ix2 i j)) = _
  refine congrArg (V m c main_arg1 : S1024x1024.Idx → EReal) (funext fun a => Fin.ext ?_)
  match a with
  | ⟨0, _⟩ => show win0_1.index t (0 : Fin 2) * 1024 + 1 * i.val = i.val; omega
  | ⟨1, _⟩ => show win0_1.index t (1 : Fin 2) * 1024 + 1 * j.val = j.val; omega
theorem block2_apply (c : Dev nD) (t : Fin cfg0.N) (i : Fin 1) (j : Fin 1024) :
    iblk m c 2 t (ix2 i j) = (V m c main_v6 : S1x1024.Idx → EReal) (ix2 i j) := by
  obtain ⟨e0, e1⟩ := index_w2 t
  show (V m c main_v6 : S1x1024.Idx → EReal) (((cfg0.win 2).blk t).view.emb (ix2 i j)) = _
  refine congrArg (V m c main_v6 : S1x1024.Idx → EReal) (funext fun a => Fin.ext ?_)
  match a with
  | ⟨0, _⟩ => show win0_2.index t (0 : Fin 2) * 1 + 1 * i.val = i.val; omega
  | ⟨1, _⟩ => show win0_2.index t (1 : Fin 2) * 1024 + 1 * j.val = j.val; omega
theorem block3_apply (c : Dev nD) (t : Fin cfg0.N) (i : Fin 1024) (j : Fin 1024) :
    iblk m c 3 t (ix2 i j) = (V m c main_arg3 : S1024x1024.Idx → EReal) (ix2 i j) := by
  obtain ⟨e0, e1⟩ := index_w3 t
  show (V m c main_arg3 : S1024x1024.Idx → EReal) (((cfg0.win 3).blk t).view.emb (ix2 i j)) = _
  refine congrArg (V m c main_arg3 : S1024x1024.Idx → EReal) (funext fun a => Fin.ext ?_)
  match a with
  | ⟨0, _⟩ => show win0_3.index t (0 : Fin 2) * 1024 + 1 * i.val = i.val; omega
  | ⟨1, _⟩ => show win0_3.index t (1 : Fin 2) * 1024 + 1 * j.val = j.val; omega
theorem block4_apply (c : Dev nD) (t : Fin cfg0.N) (i : Fin 1) (j : Fin 1024) :
    iblk m c 4 t (ix2 i j) = (V m c main_v7 : S1x1024.Idx → EReal) (ix2 i j) := by
  obtain ⟨e0, e1⟩ := index_w4 t
  show (V m c main_v7 : S1x1024.Idx → EReal) (((cfg0.win 4).blk t).view.emb (ix2 i j)) = _
  refine congrArg (V m c main_v7 : S1x1024.Idx → EReal) (funext fun a => Fin.ext ?_)
  match a with
  | ⟨0, _⟩ => show win0_4.index t (0 : Fin 2) * 1 + 1 * i.val = i.val; omega
  | ⟨1, _⟩ => show win0_4.index t (1 : Fin 2) * 1024 + 1 * j.val = j.val; omega
theorem block5_apply (c : Dev nD) (t : Fin cfg0.N) (i : Fin 1) (j : Fin 1024) :
    iblk m c 5 t (ix2 i j) = (V m c main_v8 : S1x1024.Idx → EReal) (ix2 i j) := by
  obtain ⟨e0, e1⟩ := index_w5 t
  show (V m c main_v8 : S1x1024.Idx → EReal) (((cfg0.win 5).blk t).view.emb (ix2 i j)) = _
  refine congrArg (V m c main_v8 : S1x1024.Idx → EReal) (funext fun a => Fin.ext ?_)
  match a with
  | ⟨0, _⟩ => show win0_5.index t (0 : Fin 2) * 1 + 1 * i.val = i.val; omega
  | ⟨1, _⟩ => show win0_5.index t (1 : Fin 2) * 1024 + 1 * j.val = j.val; omega
theorem block6_apply (c : Dev nD) (t : Fin cfg0.N) (i : Fin 1) (j : Fin 1024) :
    iblk m c 6 t (ix2 i j) = (V m c main_v9 : S1x1024.Idx → EReal) (ix2 i j) := by
  obtain ⟨e0, e1⟩ := index_w6 t
  show (V m c main_v9 : S1x1024.Idx → EReal) (((cfg0.win 6).blk t).view.emb (ix2 i j)) = _
  refine congrArg (V m c main_v9 : S1x1024.Idx → EReal) (funext fun a => Fin.ext ?_)
  match a with
  | ⟨0, _⟩ => show win0_6.index t (0 : Fin 2) * 1 + 1 * i.val = i.val; omega
  | ⟨1, _⟩ => show win0_6.index t (1 : Fin 2) * 1024 + 1 * j.val = j.val; omega
theorem block7_apply (c : Dev nD) (t : Fin cfg0.N) (i : Fin 4096) (j : Fin 128) :
    iblk m c 7 t (ix2 i j) = (V m c main_v1 : S4096x128.Idx → EReal) (ix2 i j) := by
  obtain ⟨e0, e1⟩ := index_w7 t
  show (V m c main_v1 : S4096x128.Idx → EReal) (((cfg0.win 7).blk t).view.emb (ix2 i j)) = _
  refine congrArg (V m c main_v1 : S4096x128.Idx → EReal) (funext fun a => Fin.ext ?_)
  match a with
  | ⟨0, _⟩ => show win0_7.index t (0 : Fin 2) * 4096 + 1 * i.val = i.val; omega
  | ⟨1, _⟩ => show win0_7.index t (1 : Fin 2) * 128 + 1 * j.val = j.val; omega
theorem block8_apply (c : Dev nD) (t : Fin cfg0.N) (i : Fin 1) (j : Fin 4096) :
    iblk m c 8 t (ix2 i j) = (V m c main_v10 : S1x4096.Idx → EReal) (ix2 i j) := by
  obtain ⟨e0, e1⟩ := index_w8 t
  show (V m c main_v10 : S1x4096.Idx → EReal) (((cfg0.win 8).blk t).view.emb (ix2 i j)) = _
  refine congrArg (V m c main_v10 : S1x4096.Idx → EReal) (funext fun a => Fin.ext ?_)
  match a with
  | ⟨0, _⟩ => show win0_8.index t (0 : Fin 2) * 1 + 1 * i.val = i.val; omega
  | ⟨1, _⟩ => show win0_8.index t (1 : Fin 2) * 4096 + 1 * j.val = j.val; omega
theorem block9_apply (c : Dev nD) (t : Fin cfg0.N) (i : Fin 1024) (j : Fin 4096) :
    iblk m c 9 t (ix2 i j) = (V m c main_arg9 : S1024x4096.Idx → EReal) (ix2 i j) := by
  obtain ⟨e0, e1⟩ := index_w9 t
  show (V m c main_arg9 : S1024x4096.Idx → EReal) (((cfg0.win 9).blk t).view.emb (ix2 i j)) = _
  refine congrArg (V m c main_arg9 : S1024x4096.Idx → EReal) (funext fun a => Fin.ext ?_)
  match a with
  | ⟨0, _⟩ => show win0_9.index t (0 : Fin 2) * 1024 + 1 * i.val = i.val; omega
  | ⟨1, _⟩ => show win0_9.index t (1 : Fin 2) * 4096 + 1 * j.val = j.val; omega
theorem block10_apply (c : Dev nD) (t : Fin cfg0.N) (i : Fin 1) (j : Fin 1024) :
    iblk m c 10 t (ix2 i j) = (V m c main_v11 : S1x1024.Idx → EReal) (ix2 i j) := by
  obtain ⟨e0, e1⟩ := index_w10 t
  show (V m c main_v11 : S1x1024.Idx → EReal) (((cfg0.win 10).blk t).view.emb (ix2 i j)) = _
  refine congrArg (V m c main_v11 : S1x1024.Idx → EReal) (funext fun a => Fin.ext ?_)
  match a with
  | ⟨0, _⟩ => show win0_10.index t (0 : Fin 2) * 1 + 1 * i.val = i.val; omega
  | ⟨1, _⟩ => show win0_10.index t (1 : Fin 2) * 1024 + 1 * j.val = j.val; omega
theorem block11_apply (c : Dev nD) (t : Fin cfg0.N) (i : Fin 1) (j : Fin 1024) :
    iblk m c 11 t (ix2 i j) = (V m c main_v12 : S1x1024.Idx → EReal) (ix2 i j) := by
  obtain ⟨e0, e1⟩ := index_w11 t
  show (V m c main_v12 : S1x1024.Idx → EReal) (((cfg0.win 11).blk t).view.emb (ix2 i j)) = _
  refine congrArg (V m c main_v12 : S1x1024.Idx → EReal) (funext fun a => Fin.ext ?_)
  match a with
  | ⟨0, _⟩ => show win0_11.index t (0 : Fin 2) * 1 + 1 * i.val = i.val; omega
  | ⟨1, _⟩ => show win0_11.index t (1 : Fin 2) * 1024 + 1 * j.val = j.val; omega
theorem block12_apply (c : Dev nD) (t : Fin cfg0.N) (i : Fin 1) (j : Fin 1024) :
    iblk m c 12 t (ix2 i j) = (V m c main_v13 : S1x1024.Idx → EReal) (ix2 i j) := by
  obtain ⟨e0, e1⟩ := index_w12 t
  show (V m c main_v13 : S1x1024.Idx → EReal) (((cfg0.win 12).blk t).view.emb (ix2 i j)) = _
  refine congrArg (V m c main_v13 : S1x1024.Idx → EReal) (funext fun a => Fin.ext ?_)
  match a with
  | ⟨0, _⟩ => show win0_12.index t (0 : Fin 2) * 1 + 1 * i.val = i.val; omega
  | ⟨1, _⟩ => show win0_12.index t (1 : Fin 2) * 1024 + 1 * j.val = j.val; omega

/-- The token window's block at point `t` is rows `256 t … 256 t + 255`. -/
theorem tokenBlock_apply (c : Dev nD) (t : Fin cfg0.N) (p : Fin 256) (e : Fin 1024) :
    iblk m c 0 t (ix2 p e)
      = (V m c main_v0 : S16384x1024.Idx → EReal) (ix2 (⟨t.val * 256 + p.val, by have : t.val < 64 := t.isLt; omega⟩ : Fin 16384) e) := by
  obtain ⟨e0, e1⟩ := index_tokens t
  show (V m c main_v0 : S16384x1024.Idx → EReal) (((cfg0.win 0).blk t).view.emb (ix2 p e)) = _
  refine congrArg (V m c main_v0 : S16384x1024.Idx → EReal) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * e.val = e.val; omega

/-- The staged blocks hold the weights: each is its argument re-laid as the launch found it. -/
theorem holds (c : Dev nD) (t : Fin cfg0.N) :
    BodyRows.Holds (weights m c) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) where
  Wq f e := (block1_apply m c t f e).trans (congrFun (V_main_arg1 m c) _)
  wire e := (block2_apply m c t 0 e).trans (wireRow_apply m c e)
  Wc f e := (block3_apply m c t f e).trans (congrFun (V_main_arg3 m c) _)
  bc e := (block4_apply m c t 0 e).trans (attnBias_apply m c e)
  g1 e := (block5_apply m c t 0 e).trans (gain1_apply m c e)
  b1 e := (block6_apply m c t 0 e).trans (bias1_apply m c e)
  W1 f k := (block7_apply m c t f k).trans (padded_apply m c f k)
  c1 f := (block8_apply m c t 0 f).trans (hiddenBias_apply m c f)
  W2 j f := (block9_apply m c t j f).trans (congrFun (V_main_arg9 m c) _)
  c2 j := (block10_apply m c t 0 j).trans (outBias_apply m c j)
  g2 j := (block11_apply m c t 0 j).trans (gain2_apply m c j)
  b2 j := (block12_apply m c t 0 j).trans (bias2_apply m c j)

/-! ## What a point writes back -/

/-- The body's stored block as one function of its input blocks: row by row the token function. -/
theorem out_eq (P : Params) (x0 : FVec Ideal S256x1024 .f32) (w1 : FVec Ideal S1024x1024 .f32) (r2 : FVec Ideal S1x1024 .f32)
    (w3 : FVec Ideal S1024x1024 .f32) (b4 g5 b6 : FVec Ideal S1x1024 .f32) (w7 : FVec Ideal S4096x128 .f32)
    (c8 : FVec Ideal S1x4096 .f32) (w9 : FVec Ideal S1024x4096 .f32) (c10 g11 b12 : FVec Ideal S1x1024 .f32)
    (H : BodyRows.Holds P w1 r2 w3 b4 g5 b6 w7 c8 w9 c10 g11 b12) :
    out0_13 (F := Ideal) x0 w1 r2 w3 b4 g5 b6 w7 c8 w9 c10 g11 b12
      = fun y => token P (fun e => x0 (ix2 (y 0) e)) (y 1) := by
  unfold out0_13
  rw [View.canon_unit_zero offsets_zero]
  simp only [View.ld_unit_zero (S := S256x1024) offsets_zero, View.ld_unit_zero (S := S1024x1024) offsets_zero,
    View.ld_unit_zero (S := S1x1024) offsets_zero, View.ld_unit_zero (S := S4096x128) offsets_zero,
    View.ld_unit_zero (S := S1x4096) offsets_zero, View.ld_unit_zero (S := S1024x4096) offsets_zero]
  funext y
  obtain ⟨p, q, rfl⟩ : ∃ (p : Fin 256) (q : Fin 1024), y = ix2 p q := ⟨y 0, y 1, eq_ix2 y⟩
  exact BodyRows.body_apply P x0 w1 r2 w3 b4 g5 b6 w7 c8 w9 c10 g11 b12 H p q

/-- The result function at row `r`, in terms of the rows the launch found. -/
theorem rowsOf_apply (c : Dev nD) (r : Fin 16384) (q : Fin 1024) :
    rowsOf m c (ix2 r q) = token (weights m c) (fun e => (V m c main_v0 : S16384x1024.Idx → EReal) (ix2 r e)) q := by
  show token (weights m c) (fun e => a0 m c (ix3 (⟨r.val / 2048, _⟩ : Fin 8) (⟨r.val % 2048, _⟩ : Fin 2048) e)) q = _
  exact congrArg (fun x => token (weights m c) x q) (funext fun e => (tokens_apply m c r e).symm)

/-- WHAT POINT `t` WRITES BACK is block `t` of the result function. -/
theorem flushed_eq (c : Dev nD) (t : Fin cfg0.N) :
    (dats m 0 c).flushed 13 t = ((cfg0.win 13).blk t).view.read (Elt Ideal) (rowsOf m c) := by
  show (cfg0.win 13).cut (grid0.coords t) ((dats m 0 c).after 13 t) = _
  rw [after0_13]
  refine (congrArg ((cfg0.win 13).cut (grid0.coords t))
    (out_eq (weights m c) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (holds m c t))).trans ?_
  obtain ⟨e0, e1⟩ := index_result t
  have ht : t.val < 64 := t.isLt
  funext y
  show token (weights m c) (fun e => iblk m c 0 t (ix2 (y 0) e)) (y 1) = rowsOf m c (((cfg0.win 13).blk t).view.emb y)
  have hemb : ((cfg0.win 13).blk t).view.emb y
      = ix2 (⟨t.val * 256 + (y 0).val, by have : (y 0).val < 256 := (y 0).isLt; omega⟩ : Fin 16384) (y 1) := by
    funext a; apply Fin.ext
    match a with
    | ⟨0, _⟩ => show win0_13.index t (0 : Fin 2) * 256 + 1 * (y 0).val = t.val * 256 + (y 0).val; omega
    | ⟨1, _⟩ => show win0_13.index t (1 : Fin 2) * 1024 + 1 * (y 1).val = (y 1).val; omega
  refine Eq.trans ?_ (congrArg (rowsOf m c) hemb).symm
  refine Eq.trans ?_ (rowsOf_apply m c (⟨t.val * 256 + (y 0).val, by have : (y 0).val < 256 := (y 0).isLt; omega⟩ : Fin 16384) (y 1)).symm
  exact congrArg (fun x => token (weights m c) x (y 1)) (funext fun e => tokenBlock_apply m c t (y 0) e)

/-! ## The 64 blocks tile the rows -/

/-- An index is in point `t`'s block iff each coordinate is in the block's range on its axis. -/
theorem mem_block (t : Fin cfg0.N) (i : S16384x1024.Idx) :
    i ∈ ((cfg0.win 13).blk t).view.set ↔ ∀ a : Fin 2, win0_13.index t a * S256x1024.size a ≤ (i a).val
      ∧ (i a).val < win0_13.index t a * S256x1024.size a + S256x1024.size a := by
  show i ∈ ((View.whole main_v14).slice (win0_13.rect t)).set ↔ _
  rw [View.set_slice_whole, Rect.mem_set_unit]
  exact Iff.rfl

/-- Row `r` is in the block of point `r / 256`. -/
theorem cover (i : S16384x1024.Idx) :
    ∃ t : Fin cfg0.N, (cfg0.win 13).flush t = true ∧ i ∈ ((cfg0.win 13).blk t).view.set := by
  have hi0 : (i 0).val < 16384 := (i 0).isLt
  have hi1 : (i 1).val < 1024 := (i 1).isLt
  have hN : (i 0).val / 256 < cfg0.N := by show _ < 64; omega
  obtain ⟨e0, e1⟩ := index_result ⟨(i 0).val / 256, hN⟩
  refine ⟨⟨(i 0).val / 256, hN⟩, flush0_13 _, ?_⟩
  rw [mem_block]
  intro a
  match a with
  | ⟨0, _⟩ =>
    show win0_13.index ⟨(i 0).val / 256, hN⟩ (0 : Fin 2) * 256 ≤ (i 0).val
      ∧ (i 0).val < win0_13.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_13.index ⟨(i 0).val / 256, hN⟩ (1 : Fin 2) * 1024 ≤ (i 1).val
      ∧ (i 1).val < win0_13.index ⟨(i 0).val / 256, hN⟩ (1 : Fin 2) * 1024 + 1024
    rw [e1]; omega

/-- THE RESULT ARRAY after the launch is the result function. -/
theorem final (c : Dev nD) : (dats m 0 c).arrAt 13 cfg0.N = rowsOf m c :=
  (dats m 0 c).arrAt_eq_of_cover 13 (rowsOf m c) (fun t _ => flushed_eq m c t) (cover)

end Cert.Blocks

end
-- ==== Proof.Tail.lean ====
/-
  THE LAST RE-LAYING.

  After the launch the kernel's program does one more thing: it views the result's 16384 rows of 1024 features as
  8 × 2048 rows.  A re-laying keeps the row-major order, so entry `(b, s, j)` of the final array is entry
  `(2048 b + s, j)` of the 16384-row array.  If row `r` of that array is the block applied to token
  `(r / 2048, r mod 2048)` of the input, then, since `(2048 b + s) / 2048 = b` and `(2048 b + s) mod 2048 = s`, entry
  `(b, s, j)` of the final array is entry `j` of the block applied to token `(b, s)`: the specification's whole result.
-/
import proofs.«179164_j65481071407980_2_alg».proof.Proof.Gen.KernelIdeal.Frame
import proofs.«179164_j65481071407980_2_alg».proof.Proof.ResultRows
import proofs.«179164_j65481071407980_2_alg».proof.Proof.TokenSpec
import Idealize.ShloMosaic.Lib.StableHlo.Run
import Idealize.ShloMosaic.Lib.Pipeline.Value

noncomputable section

namespace Cert.Tail

open Idealize.ShloMosaic Idealize.ShloMosaic.TcCoe Idealize.SL.Sem Idealize.ShloMosaic.StableHlo Idealize.ShloMosaic.ValueIdx
open Cert.KernelIdeal Cert.KernelIdeal.Gen Cert.Operands Cert.ResultRows Cert.TokenSpec

variable (m : (ℓ : Loc nD τ sig) → Buf (Elt Ideal) ℓ)

/-- The final array is the re-laying of the array the launch leaves. -/
theorem tail_shapeCast (c : Dev nD) :
    (Pipeline.afterTail₀ cfgs (dats m) 0 (V0 m) [hostOps1] c main_v15 : S8x2048x1024.Idx → EReal)
      = shapeCast S8x2048x1024 ((dats m 0 c).arrAt 13 cfg0.N : S16384x1024.Idx → EReal) shapeCasts_S16384x1024_S8x2048x1024 := by
  unfold Pipeline.afterTail₀
  show StableHlo.after hostOps1 _ (Proc.devRef .tc main_v15) = _
  after_results
  have h := Pipeline.withArrays_arr spec0 launch0.win.arr_inj c (V0 m c) (fun w => (dats m 0 c).arrAt w cfg0.N) 13
  exact congrArg (fun x : S16384x1024.Idx → EReal => shapeCast S8x2048x1024 x shapeCasts_S16384x1024_S8x2048x1024) h

/-- THE KERNEL PROGRAM'S RESULT: if the array the launch leaves holds, in row `r`, the block applied to token
    `(r / 2048, r mod 2048)`, the final array is the specification's whole result. -/
theorem tail_eq (c : Dev nD) (hfinal : (dats m 0 c).arrAt 13 cfg0.N = rowsOf m c) :
    (Pipeline.afterTail₀ cfgs (dats m) 0 (V0 m) [hostOps1] c main_v15 : S8x2048x1024.Idx → EReal)
      = blockOf (weights m c) (a0 m c) := by
  rw [tail_shapeCast, hfinal]
  funext i
  obtain ⟨b, s, j, rfl⟩ : ∃ (b : Fin 8) (s : Fin 2048) (j : Fin 1024), i = ix3 b s j := ⟨i 0, i 1, i 2, eq_ix3 i⟩
  have hb := b.isLt
  have hs := s.isLt
  refine (shapeCast_apply _ _ _ (ix2 (⟨2048 * b.val + s.val, by omega⟩ : Fin 16384) j) ?_).trans ?_
  · rw [Shape.rowMajor_val_two, Shape.rowMajor_val_three]
    show (2048 * b.val + s.val) * 1024 + j.val = (b.val * 2048 + s.val) * 1024 + j.val
    omega
  · have hq : (2048 * b.val + s.val) / 2048 = b.val := by omega
    have hr : (2048 * b.val + s.val) % 2048 = s.val := by omega
    show token (weights m c) (fun e => a0 m c (ix3 (⟨(2048 * b.val + s.val) / 2048, _⟩ : Fin 8)
        (⟨(2048 * b.val + s.val) % 2048, _⟩ : Fin 2048) e)) j = token (weights m c) (fun e => a0 m c (ix3 b s e)) j
    simp only [hq, hr]

end Cert.Tail

end
-- ==== Proof.KernelRun.lean ====
/-
  The kernel's run, with its result named.

  Every weakly fair execution of the kernel program terminates, its argument arrays unchanged, and its result — the
  16384 rows the launch leaves, re-laid as 8 × 2048 tokens — is the token function applied to every token of the
  input.
-/
import proofs.«179164_j65481071407980_2_alg».proof.Proof.Gen.KernelIdeal.Frame
import proofs.«179164_j65481071407980_2_alg».proof.Proof.Blocks
import proofs.«179164_j65481071407980_2_alg».proof.Proof.Tail
import proofs.«179164_j65481071407980_2_alg».proof.Proof.ResultRows
import proofs.«179164_j65481071407980_2_alg».proof.Proof.TokenSpec

noncomputable section

namespace Cert.KernelRun

open Idealize.ShloMosaic Idealize.ShloMosaic.TcCoe Idealize.SL.Sem Idealize.ShloMosaic.StableHlo
open Idealize.ShloMosaic.Pipeline (Dat Cfg Window)
open Cert.KernelIdeal Cert.KernelIdeal.Gen Cert.TokenSpec Cert.Operands Cert.ResultRows

variable (m : (ℓ : Loc nD τ sig) → Buf (Elt Ideal) ℓ) (ρ : Dev nD → PrngReg)

/-- After the run every argument array is as launched: one a window stages is never written back, one no window
    stages is touched by no host operation. -/
theorem args_kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (W_main_arg0 m (dats m) c),
   ((h c).1 1).trans (((dats m 0 c).arrAt_in 1 rfl _).trans ((A_eq m c 1).trans (V_main_arg1 m c))),
   ((h c).2 main_arg2 (Pipeline.mem_restRefs_of main_arg2 (by decide) (by decide))).trans (W_main_arg2 m (dats m) c),
   ((h c).1 3).trans (((dats m 0 c).arrAt_in 3 rfl _).trans ((A_eq m c 3).trans (V_main_arg3 m c))),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).2 main_arg8 (Pipeline.mem_restRefs_of main_arg8 (by decide) (by decide))).trans (W_main_arg8 m (dats m) c),
   ((h c).1 9).trans (((dats m 0 c).arrAt_in 9 rfl _).trans ((A_eq m c 9).trans (V_main_arg9 m c))),
   ((h c).2 main_arg10 (Pipeline.mem_restRefs_of main_arg10 (by decide) (by decide))).trans (W_main_arg10 m (dats m) c),
   ((h c).2 main_arg11 (Pipeline.mem_restRefs_of main_arg11 (by decide) (by decide))).trans (W_main_arg11 m (dats m) c),
   ((h c).2 main_arg12 (Pipeline.mem_restRefs_of main_arg12 (by decide) (by decide))).trans (W_main_arg12 m (dats m) c)⟩

/-- THE KERNEL'S RUN: the result is the block function of the arguments; the arguments are unchanged. -/
theorem run : θ_run defs (onTc (τ := τ) (main (F := Ideal))) ⟨m, fun _ => 0, ρ⟩ fun r => ∀ c : Dev nD,
      r.2.mem ((c.tc : Thread nD τ).loc main_v15) = blockOf (weights m c) (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
      ⟨((h c).2 main_v15 (Pipeline.mem_restRefs_of main_v15 (by decide) (by decide))).trans
          (Tail.tail_eq m c (Blocks.final m c)),
        args_kept m r h c⟩)
    (run_main m ρ)

end Cert.KernelRun

end
-- ==== Proof.RefStages.lean ====
/-
  THE REFERENCE'S THREE STAGES, as whole-array functions.

  The reference program is a straight line of array operations.  Cut at the three values that are read more than
  once downstream, it is the composition of three functions of whole arrays:

    attention   the input plus the output projection (with its bias) of  cos (input · Wq) ⊙ cos (angles),  the angles
                broadcast along the heads;
    norm        layer normalisation of each row: subtract the row mean, scale by the reciprocal square root of the
                row variance plus ε, apply gain and bias;
    feed-forward   the input plus the second affine layer of  max (first affine layer of cos of the first 32 features) 0.

  Each function below is the printed operations of that stretch of the program composed in program order, every
  operation spelt as the program spells it.  An intermediate array that the program reads twice is a definition of
  its own (the mean column, the centred array), so that no term is written twice.
-/
import proofs.«179164_j65481071407980_2_alg».proof.ReferenceIdeal

noncomputable section

namespace Cert.RefStages

open Idealize.ShloMosaic
open Cert.ReferenceIdeal
open Cert.ReferenceIdeal.Facts₀

variable {F : FTy → Type} [FloatOps F] [Facts₀]

/-- THE ATTENTION STAGE: from the input `x0`, the query weights `x1`, the 64 angles `x2`, the output weights `x3` and
    the output bias `x4`, the array `x0 + ((cos (x0 · x1ᵀ) ⊙ cos x2) · x3ᵀ + x4)`, the angles repeated along the 16
    heads through the view of a row of 1024 features as 16 × 64. -/
def attnStage (x0 : (⟨S8x2048x1024, .f32⟩ : BufTy).Contents (Elt F)) (x1 : (⟨S1024x1024, .f32⟩ : BufTy).Contents (Elt F))
    (x2 : (⟨S64, .f32⟩ : BufTy).Contents (Elt F)) (x3 : (⟨S1024x1024, .f32⟩ : BufTy).Contents (Elt F))
    (x4 : (⟨S1024, .f32⟩ : BufTy).Contents (Elt F)) : (⟨S8x2048x1024, .f32⟩ : BufTy).Contents (Elt F) :=
  addf x0
    (addf
      (Host.dotGeneral dot_S8x2048x1024_S1024x1024_S8x2048x1024_2_1_01_0_n_n none
        (shapeCast S8x2048x1024
          (mulf
            (Host.cos
              (shapeCast S8x2048x16x64
                (Host.dotGeneral dot_S8x2048x1024_S1024x1024_S8x2048x1024_2_1_01_0_n_n none x0 x1)
                shapeCasts_S8x2048x1024_S8x2048x16x64))
            (broadcastInDim S8x2048x16x64 ![0, 1, 2, 3] bcast_S1x1x1x64_S8x2048x16x64_0_1_2_3
              (broadcastInDim S1x1x1x64 ![3] bcast_S64_S1x1x1x64_3 (Host.cos x2))))
          shapeCasts_S8x2048x16x64_S8x2048x1024)
        x3)
      (broadcastInDim S8x2048x1024 ![0, 1, 2] bcast_S1x1x1024_S8x2048x1024_0_1_2
        (broadcastInDim S1x1x1024 ![2] bcast_S1024_S1x1x1024_2 x4)))

/-- The column of row sums of `h` (started from the literal `0.0`), as an `8 × 2048 × 1` array. -/
def sumCol (h : (⟨S8x2048x1024, .f32⟩ : BufTy).Contents (Elt F)) : (⟨S8x2048x1, .f32⟩ : BufTy).Contents (Elt F) :=
  broadcastInDim S8x2048x1 ![0, 1] bcast_S8x2048_S8x2048x1_0_1
    (Host.reduceAdd h (constant S_ .f32 0x00000000#32) reducesTo_S8x2048x1024_S8x2048_d2 h_S_)

/-- The column of row means of `h`: the row sums divided by the literal `1024.0`. -/
def meanCol (h : (⟨S8x2048x1024, .f32⟩ : BufTy).Contents (Elt F)) : (⟨S8x2048x1, .f32⟩ : BufTy).Contents (Elt F) :=
  Host.divf (sumCol h) (broadcastInDim S8x2048x1 ![] bcast_S_S8x2048x1 (constant S_ .f32 0x44800000#32))

/-- The centred array: `h` minus its row mean, the mean column repeated along the row. -/
def centred (h : (⟨S8x2048x1024, .f32⟩ : BufTy).Contents (Elt F)) : (⟨S8x2048x1024, .f32⟩ : BufTy).Contents (Elt F) :=
  subf h (broadcastInDim S8x2048x1024 ![0, 1, 2] bcast_S8x2048x1_S8x2048x1024_0_1_2 (meanCol h))

/-- The column of reciprocal standard deviations: `rsqrt` of the row mean of the squared centred array plus the
    literal `ε`. -/
def rstdCol (h : (⟨S8x2048x1024, .f32⟩ : BufTy).Contents (Elt F)) : (⟨S8x2048x1, .f32⟩ : BufTy).Contents (Elt F) :=
  Host.rsqrt
    (addf (meanCol (mulf (centred h) (centred h)))
      (broadcastInDim S8x2048x1 ![] bcast_S_S8x2048x1 (constant S_ .f32 0x3727C5AC#32)))

/-- THE NORMALISATION STAGE: layer normalisation of every row of `h` with gain `g` and bias `b`:
    `(h - mean) · rsqrt (var + ε) · g + b`. -/
def normStage (h : (⟨S8x2048x1024, .f32⟩ : BufTy).Contents (Elt F)) (g b : (⟨S1024, .f32⟩ : BufTy).Contents (Elt F)) :
    (⟨S8x2048x1024, .f32⟩ : BufTy).Contents (Elt F) :=
  addf
    (mulf
      (mulf (centred h)
        (broadcastInDim S8x2048x1024 ![0, 1, 2] bcast_S8x2048x1_S8x2048x1024_0_1_2 (rstdCol h)))
      (broadcastInDim S8x2048x1024 ![0, 1, 2] bcast_S1x1x1024_S8x2048x1024_0_1_2
        (broadcastInDim S1x1x1024 ![2] bcast_S1024_S1x1x1024_2 g)))
    (broadcastInDim S8x2048x1024 ![0, 1, 2] bcast_S1x1x1024_S8x2048x1024_0_1_2
      (broadcastInDim S1x1x1024 ![2] bcast_S1024_S1x1x1024_2 b))

/-- The hidden layer: `max (cos (h[.., 0:32]) · x7ᵀ + x8) 0`. -/
def hiddenArr (h : (⟨S8x2048x1024, .f32⟩ : BufTy).Contents (Elt F)) (x7 : (⟨S4096x32, .f32⟩ : BufTy).Contents (Elt F))
    (x8 : (⟨S4096, .f32⟩ : BufTy).Contents (Elt F)) : (⟨S8x2048x4096, .f32⟩ : BufTy).Contents (Elt F) :=
  maximumf
    (addf
      (Host.dotGeneral dot_S8x2048x32_S4096x32_S8x2048x4096_2_1_01_0_n_n none
        (Host.cos (extractStridedSlice S8x2048x32 ![0, 0, 0] h slices_S8x2048x1024_S8x2048x32_0_0_0))
        x7)
      (broadcastInDim S8x2048x4096 ![0, 1, 2] bcast_S1x1x4096_S8x2048x4096_0_1_2
        (broadcastInDim S1x1x4096 ![2] bcast_S4096_S1x1x4096_2 x8)))
    (broadcastInDim S8x2048x4096 ![] bcast_S_S8x2048x4096 (constant S_ .f32 0x00000000#32))

/-- THE FEED-FORWARD STAGE: `h + (hidden · x9ᵀ + x10)`. -/
def ffnStage (h : (⟨S8x2048x1024, .f32⟩ : BufTy).Contents (Elt F)) (x7 : (⟨S4096x32, .f32⟩ : BufTy).Contents (Elt F))
    (x8 : (⟨S4096, .f32⟩ : BufTy).Contents (Elt F)) (x9 : (⟨S1024x4096, .f32⟩ : BufTy).Contents (Elt F))
    (x10 : (⟨S1024, .f32⟩ : BufTy).Contents (Elt F)) : (⟨S8x2048x1024, .f32⟩ : BufTy).Contents (Elt F) :=
  addf h
    (addf
      (Host.dotGeneral dot_S8x2048x4096_S1024x4096_S8x2048x1024_2_1_01_0_n_n none (hiddenArr h x7 x8) x9)
      (broadcastInDim S8x2048x1024 ![0, 1, 2] bcast_S1x1x1024_S8x2048x1024_0_1_2
        (broadcastInDim S1x1x1024 ![2] bcast_S1024_S1x1x1024_2 x10)))

end Cert.RefStages

end
-- ==== Proof.RefRun.lean ====
/-
  The reference program's run, read back in four segments.

  The reference is a straight line of 85 whole-array operations.  Composed into one term it repeats every shared
  intermediate at each of its uses; instead the line is cut where its stages meet — the attention layer, the first
  normalisation, the feed-forward layer, the second normalisation — and each segment is read against an ARBITRARY
  entry valuation: what it leaves in the one buffer the next segment reads is a named function of what it found in the
  buffers it reads, and every other buffer a later segment or the frame needs is left as found.  The whole run is then
  the four named functions composed.
-/
import proofs.«179164_j65481071407980_2_alg».proof.ReferenceIdeal
import proofs.«179164_j65481071407980_2_alg».proof.Proof.RefStages
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! ## The program as a list of operations -/

/-- The program's 85 operations, in order; the three operations of the clamp-at-zero function stand where it is
    called, over that call's own buffers. -/
abbrev ops : List (HloOp τ sig (Elt F)) :=
  [ StableHlo.binary main_arg0 main_arg1 main_v0 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    StableHlo.reshape main_v0 main_v1 rfl shapeCasts_S8x2048x1024_S8x2048x16x64,
    StableHlo.unary main_v1 main_v2 (Host.cos : (⟨S8x2048x16x64, .f32⟩ : BufTy).Contents (Elt F) → (⟨S8x2048x16x64, .f32⟩ : BufTy).Contents (Elt F)),
    StableHlo.unary main_arg2 main_v3 (Host.cos : (⟨S64, .f32⟩ : BufTy).Contents (Elt F) → (⟨S64, .f32⟩ : BufTy).Contents (Elt F)),
    StableHlo.unary main_v3 main_v4 (broadcastInDim S1x1x1x64 ![3] bcast_S64_S1x1x1x64_3 : (⟨S64, .f32⟩ : BufTy).Contents (Elt F) → (⟨S1x1x1x64, .f32⟩ : BufTy).Contents (Elt F)),
    StableHlo.unary main_v4 main_v5 (broadcastInDim S8x2048x16x64 ![0, 1, 2, 3] bcast_S1x1x1x64_S8x2048x16x64_0_1_2_3 : (⟨S1x1x1x64, .f32⟩ : BufTy).Contents (Elt F) → (⟨S8x2048x16x64, .f32⟩ : BufTy).Contents (Elt F)),
    StableHlo.binary main_v2 main_v5 main_v6 (mulf : (⟨S8x2048x16x64, .f32⟩ : BufTy).Contents (Elt F) → (⟨S8x2048x16x64, .f32⟩ : BufTy).Contents (Elt F) → (⟨S8x2048x16x64, .f32⟩ : BufTy).Contents (Elt F)),
    StableHlo.reshape main_v6 main_v7 rfl shapeCasts_S8x2048x16x64_S8x2048x1024,
    StableHlo.binary main_v7 main_arg3 main_v8 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    StableHlo.unary main_arg4 main_v9 (broadcastInDim S1x1x1024 ![2] bcast_S1024_S1x1x1024_2 : (⟨S1024, .f32⟩ : BufTy).Contents (Elt F) → (⟨S1x1x1024, .f32⟩ : BufTy).Contents (Elt F)),
    StableHlo.unary main_v9 main_v10 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v8 main_v10 main_v11 (addf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v11 main_v12 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst (constant S_ .f32 0x00000000#32),
    StableHlo.binary main_v12 main_cst main_v13 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v13 main_v14 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_0 (constant S_ .f32 0x44800000#32),
    StableHlo.unary main_cst_0 main_v15 (broadcastInDim S8x2048x1 ![] bcast_S_S8x2048x1 : (⟨S_, .f32⟩ : BufTy).Contents (Elt F) → (⟨S8x2048x1, .f32⟩ : BufTy).Contents (Elt F)),
    StableHlo.binary main_v14 main_v15 main_v16 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v16 main_v17 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v12 main_v17 main_v18 (subf : (⟨S8x2048x1024, .f32⟩ : BufTy).Contents (Elt F) → (⟨S8x2048x1024, .f32⟩ : BufTy).Contents (Elt F) → (⟨S8x2048x1024, .f32⟩ : BufTy).Contents (Elt F)),
    StableHlo.binary main_v18 main_v18 main_v19 (mulf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_1 (constant S_ .f32 0x00000000#32),
    StableHlo.binary main_v19 main_cst_1 main_v20 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v20 main_v21 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_2 (constant S_ .f32 0x44800000#32),
    StableHlo.unary main_cst_2 main_v22 (broadcastInDim S8x2048x1 ![] bcast_S_S8x2048x1 : (⟨S_, .f32⟩ : BufTy).Contents (Elt F) → (⟨S8x2048x1, .f32⟩ : BufTy).Contents (Elt F)),
    StableHlo.binary main_v21 main_v22 main_v23 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v16 main_v24 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v12 main_v24 main_v25 (subf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_3 (constant S_ .f32 0x3727C5AC#32),
    StableHlo.unary main_cst_3 main_v26 (broadcastInDim S8x2048x1 ![] bcast_S_S8x2048x1 : (⟨S_, .f32⟩ : BufTy).Contents (Elt F) → (⟨S8x2048x1, .f32⟩ : BufTy).Contents (Elt F)),
    StableHlo.binary main_v23 main_v26 main_v27 (addf : (⟨S8x2048x1, .f32⟩ : BufTy).Contents (Elt F) → (⟨S8x2048x1, .f32⟩ : BufTy).Contents (Elt F) → (⟨S8x2048x1, .f32⟩ : BufTy).Contents (Elt F)),
    StableHlo.unary main_v27 main_v28 (Host.rsqrt : (⟨S8x2048x1, .f32⟩ : BufTy).Contents (Elt F) → (⟨S8x2048x1, .f32⟩ : BufTy).Contents (Elt F)),
    StableHlo.unary main_v28 main_v29 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v25 main_v29 main_v30 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg5 main_v31 (broadcastInDim S1x1x1024 ![2] bcast_S1024_S1x1x1024_2 : (⟨S1024, .f32⟩ : BufTy).Contents (Elt F) → (⟨S1x1x1024, .f32⟩ : BufTy).Contents (Elt F)),
    StableHlo.unary main_v31 main_v32 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v30 main_v32 main_v33 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg6 main_v34 (broadcastInDim S1x1x1024 ![2] bcast_S1024_S1x1x1024_2 : (⟨S1024, .f32⟩ : BufTy).Contents (Elt F) → (⟨S1x1x1024, .f32⟩ : BufTy).Contents (Elt F)),
    StableHlo.unary main_v34 main_v35 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v33 main_v35 main_v36 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v36 main_v37 ((extractStridedSlice S8x2048x32 ![0, 0, 0] · slices_S8x2048x1024_S8x2048x32_0_0_0) : (⟨S8x2048x1024, .f32⟩ : BufTy).Contents (Elt F) → (⟨S8x2048x32, .f32⟩ : BufTy).Contents (Elt F)),
    StableHlo.unary main_v37 main_v38 (Host.cos : (⟨S8x2048x32, .f32⟩ : BufTy).Contents (Elt F) → (⟨S8x2048x32, .f32⟩ : BufTy).Contents (Elt F)),
    StableHlo.binary main_v38 main_arg7 main_v39 ((fun l r => Host.dotGeneral dot_S8x2048x32_S4096x32_S8x2048x4096_2_1_01_0_n_n none l r) : (⟨S8x2048x32, .f32⟩ : BufTy).Contents (Elt F) → (⟨S4096x32, .f32⟩ : BufTy).Contents (Elt F) → (⟨S8x2048x4096, .f32⟩ : BufTy).Contents (Elt F)),
    StableHlo.unary main_arg8 main_v40 (broadcastInDim S1x1x4096 ![2] bcast_S4096_S1x1x4096_2 : (⟨S4096, .f32⟩ : BufTy).Contents (Elt F) → (⟨S1x1x4096, .f32⟩ : BufTy).Contents (Elt F)),
    StableHlo.unary main_v40 main_v41 (broadcastInDim S8x2048x4096 ![0, 1, 2] bcast_S1x1x4096_S8x2048x4096_0_1_2 : (⟨S1x1x4096, .f32⟩ : BufTy).Contents (Elt F) → (⟨S8x2048x4096, .f32⟩ : BufTy).Contents (Elt F)),
    StableHlo.binary main_v39 main_v41 main_v42 (addf : (⟨S8x2048x4096, .f32⟩ : BufTy).Contents (Elt F) → (⟨S8x2048x4096, .f32⟩ : BufTy).Contents (Elt F) → (⟨S8x2048x4096, .f32⟩ : BufTy).Contents (Elt F)),
    StableHlo.TRef.nullary main_call0.cst (constant S_ .f32 0x00000000#32),
    StableHlo.TRef.unary main_call0.cst main_call0.v0 (broadcastInDim S8x2048x4096 ![] bcast_S_S8x2048x4096),
    StableHlo.TRef.binary (.of main_v42) main_call0.v0 main_call0.v1 maximumf,
    StableHlo.binary main_v43 main_arg9 main_v44 ((fun l r => Host.dotGeneral dot_S8x2048x4096_S1024x4096_S8x2048x1024_2_1_01_0_n_n none l r) : (⟨S8x2048x4096, .f32⟩ : BufTy).Contents (Elt F) → (⟨S1024x4096, .f32⟩ : BufTy).Contents (Elt F) → (⟨S8x2048x1024, .f32⟩ : BufTy).Contents (Elt F)),
    StableHlo.unary main_arg10 main_v45 (broadcastInDim S1x1x1024 ![2] bcast_S1024_S1x1x1024_2 : (⟨S1024, .f32⟩ : BufTy).Contents (Elt F) → (⟨S1x1x1024, .f32⟩ : BufTy).Contents (Elt F)),
    StableHlo.unary main_v45 main_v46 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v44 main_v46 main_v47 (addf : (⟨S8x2048x1024, .f32⟩ : BufTy).Contents (Elt F) → (⟨S8x2048x1024, .f32⟩ : BufTy).Contents (Elt F) → (⟨S8x2048x1024, .f32⟩ : BufTy).Contents (Elt F)),
    StableHlo.binary main_v36 main_v47 main_v48 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_4 (constant S_ .f32 0x00000000#32),
    StableHlo.binary main_v48 main_cst_4 main_v49 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v49 main_v50 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_5 (constant S_ .f32 0x44800000#32),
    StableHlo.unary main_cst_5 main_v51 (broadcastInDim S8x2048x1 ![] bcast_S_S8x2048x1 : (⟨S_, .f32⟩ : BufTy).Contents (Elt F) → (⟨S8x2048x1, .f32⟩ : BufTy).Contents (Elt F)),
    StableHlo.binary main_v50 main_v51 main_v52 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v52 main_v53 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v48 main_v53 main_v54 (subf : (⟨S8x2048x1024, .f32⟩ : BufTy).Contents (Elt F) → (⟨S8x2048x1024, .f32⟩ : BufTy).Contents (Elt F) → (⟨S8x2048x1024, .f32⟩ : BufTy).Contents (Elt F)),
    StableHlo.binary main_v54 main_v54 main_v55 (mulf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_6 (constant S_ .f32 0x00000000#32),
    StableHlo.binary main_v55 main_cst_6 main_v56 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v56 main_v57 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_7 (constant S_ .f32 0x44800000#32),
    StableHlo.unary main_cst_7 main_v58 (broadcastInDim S8x2048x1 ![] bcast_S_S8x2048x1 : (⟨S_, .f32⟩ : BufTy).Contents (Elt F) → (⟨S8x2048x1, .f32⟩ : BufTy).Contents (Elt F)),
    StableHlo.binary main_v57 main_v58 main_v59 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v52 main_v60 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v48 main_v60 main_v61 (subf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_8 (constant S_ .f32 0x3727C5AC#32),
    StableHlo.unary main_cst_8 main_v62 (broadcastInDim S8x2048x1 ![] bcast_S_S8x2048x1 : (⟨S_, .f32⟩ : BufTy).Contents (Elt F) → (⟨S8x2048x1, .f32⟩ : BufTy).Contents (Elt F)),
    StableHlo.binary main_v59 main_v62 main_v63 (addf : (⟨S8x2048x1, .f32⟩ : BufTy).Contents (Elt F) → (⟨S8x2048x1, .f32⟩ : BufTy).Contents (Elt F) → (⟨S8x2048x1, .f32⟩ : BufTy).Contents (Elt F)),
    StableHlo.unary main_v63 main_v64 (Host.rsqrt : (⟨S8x2048x1, .f32⟩ : BufTy).Contents (Elt F) → (⟨S8x2048x1, .f32⟩ : BufTy).Contents (Elt F)),
    StableHlo.unary main_v64 main_v65 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v61 main_v65 main_v66 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg11 main_v67 (broadcastInDim S1x1x1024 ![2] bcast_S1024_S1x1x1024_2 : (⟨S1024, .f32⟩ : BufTy).Contents (Elt F) → (⟨S1x1x1024, .f32⟩ : BufTy).Contents (Elt F)),
    StableHlo.unary main_v67 main_v68 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v66 main_v68 main_v69 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg12 main_v70 (broadcastInDim S1x1x1024 ![2] bcast_S1024_S1x1x1024_2 : (⟨S1024, .f32⟩ : BufTy).Contents (Elt F) → (⟨S1x1x1024, .f32⟩ : BufTy).Contents (Elt F)),
    StableHlo.unary main_v70 main_v71 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v69 main_v71 main_v72 (addf : (⟨S8x2048x1024, .f32⟩ : BufTy).Contents (Elt F) → (⟨S8x2048x1024, .f32⟩ : BufTy).Contents (Elt F) → (⟨S8x2048x1024, .f32⟩ : BufTy).Contents (Elt F)) ]

set_option maxRecDepth 8192 in
set_option maxHeartbeats 4000000 in
/-- The program is that line: both sides are one chain of steps once the two windows and the called function are
    unfolded. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., reshape_bufs_sub .., unary_bufs_sub .., unary_bufs_sub .., unary_bufs_sub .., unary_bufs_sub ..,
    binary_bufs_sub .., reshape_bufs_sub .., binary_bufs_sub .., unary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-! ## The four segments -/

/-- The attention layer and its residual: the projection, its cosine times the rotation factors, the second
    projection with its bias, added to the input (13 operations). -/
abbrev seg1 : List (HloOp τ sig (Elt F)) :=
  [ StableHlo.binary main_arg0 main_arg1 main_v0 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    StableHlo.reshape main_v0 main_v1 rfl shapeCasts_S8x2048x1024_S8x2048x16x64,
    StableHlo.unary main_v1 main_v2 (Host.cos : (⟨S8x2048x16x64, .f32⟩ : BufTy).Contents (Elt F) → (⟨S8x2048x16x64, .f32⟩ : BufTy).Contents (Elt F)),
    StableHlo.unary main_arg2 main_v3 (Host.cos : (⟨S64, .f32⟩ : BufTy).Contents (Elt F) → (⟨S64, .f32⟩ : BufTy).Contents (Elt F)),
    StableHlo.unary main_v3 main_v4 (broadcastInDim S1x1x1x64 ![3] bcast_S64_S1x1x1x64_3 : (⟨S64, .f32⟩ : BufTy).Contents (Elt F) → (⟨S1x1x1x64, .f32⟩ : BufTy).Contents (Elt F)),
    StableHlo.unary main_v4 main_v5 (broadcastInDim S8x2048x16x64 ![0, 1, 2, 3] bcast_S1x1x1x64_S8x2048x16x64_0_1_2_3 : (⟨S1x1x1x64, .f32⟩ : BufTy).Contents (Elt F) → (⟨S8x2048x16x64, .f32⟩ : BufTy).Contents (Elt F)),
    StableHlo.binary main_v2 main_v5 main_v6 (mulf : (⟨S8x2048x16x64, .f32⟩ : BufTy).Contents (Elt F) → (⟨S8x2048x16x64, .f32⟩ : BufTy).Contents (Elt F) → (⟨S8x2048x16x64, .f32⟩ : BufTy).Contents (Elt F)),
    StableHlo.reshape main_v6 main_v7 rfl shapeCasts_S8x2048x16x64_S8x2048x1024,
    StableHlo.binary main_v7 main_arg3 main_v8 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    StableHlo.unary main_arg4 main_v9 (broadcastInDim S1x1x1024 ![2] bcast_S1024_S1x1x1024_2 : (⟨S1024, .f32⟩ : BufTy).Contents (Elt F) → (⟨S1x1x1024, .f32⟩ : BufTy).Contents (Elt F)),
    StableHlo.unary main_v9 main_v10 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v8 main_v10 main_v11 (addf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v11 main_v12 (addf : (⟨S8x2048x1024, .f32⟩ : BufTy).Contents (Elt F) → (⟨S8x2048x1024, .f32⟩ : BufTy).Contents (Elt F) → (⟨S8x2048x1024, .f32⟩ : BufTy).Contents (Elt F)) ]

/-- The first normalisation: mean, deviations, variance, reciprocal root, gain and bias (29 operations). -/
abbrev seg2 : List (HloOp τ sig (Elt F)) :=
  [ StableHlo.nullary main_cst (constant S_ .f32 0x00000000#32),
    StableHlo.binary main_v12 main_cst main_v13 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v13 main_v14 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_0 (constant S_ .f32 0x44800000#32),
    StableHlo.unary main_cst_0 main_v15 (broadcastInDim S8x2048x1 ![] bcast_S_S8x2048x1 : (⟨S_, .f32⟩ : BufTy).Contents (Elt F) → (⟨S8x2048x1, .f32⟩ : BufTy).Contents (Elt F)),
    StableHlo.binary main_v14 main_v15 main_v16 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v16 main_v17 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v12 main_v17 main_v18 (subf : (⟨S8x2048x1024, .f32⟩ : BufTy).Contents (Elt F) → (⟨S8x2048x1024, .f32⟩ : BufTy).Contents (Elt F) → (⟨S8x2048x1024, .f32⟩ : BufTy).Contents (Elt F)),
    StableHlo.binary main_v18 main_v18 main_v19 (mulf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_1 (constant S_ .f32 0x00000000#32),
    StableHlo.binary main_v19 main_cst_1 main_v20 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v20 main_v21 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_2 (constant S_ .f32 0x44800000#32),
    StableHlo.unary main_cst_2 main_v22 (broadcastInDim S8x2048x1 ![] bcast_S_S8x2048x1 : (⟨S_, .f32⟩ : BufTy).Contents (Elt F) → (⟨S8x2048x1, .f32⟩ : BufTy).Contents (Elt F)),
    StableHlo.binary main_v21 main_v22 main_v23 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v16 main_v24 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v12 main_v24 main_v25 (subf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_3 (constant S_ .f32 0x3727C5AC#32),
    StableHlo.unary main_cst_3 main_v26 (broadcastInDim S8x2048x1 ![] bcast_S_S8x2048x1 : (⟨S_, .f32⟩ : BufTy).Contents (Elt F) → (⟨S8x2048x1, .f32⟩ : BufTy).Contents (Elt F)),
    StableHlo.binary main_v23 main_v26 main_v27 (addf : (⟨S8x2048x1, .f32⟩ : BufTy).Contents (Elt F) → (⟨S8x2048x1, .f32⟩ : BufTy).Contents (Elt F) → (⟨S8x2048x1, .f32⟩ : BufTy).Contents (Elt F)),
    StableHlo.unary main_v27 main_v28 (Host.rsqrt : (⟨S8x2048x1, .f32⟩ : BufTy).Contents (Elt F) → (⟨S8x2048x1, .f32⟩ : BufTy).Contents (Elt F)),
    StableHlo.unary main_v28 main_v29 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v25 main_v29 main_v30 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg5 main_v31 (broadcastInDim S1x1x1024 ![2] bcast_S1024_S1x1x1024_2 : (⟨S1024, .f32⟩ : BufTy).Contents (Elt F) → (⟨S1x1x1024, .f32⟩ : BufTy).Contents (Elt F)),
    StableHlo.unary main_v31 main_v32 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v30 main_v32 main_v33 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg6 main_v34 (broadcastInDim S1x1x1024 ![2] bcast_S1024_S1x1x1024_2 : (⟨S1024, .f32⟩ : BufTy).Contents (Elt F) → (⟨S1x1x1024, .f32⟩ : BufTy).Contents (Elt F)),
    StableHlo.unary main_v34 main_v35 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v33 main_v35 main_v36 (addf : (⟨S8x2048x1024, .f32⟩ : BufTy).Contents (Elt F) → (⟨S8x2048x1024, .f32⟩ : BufTy).Contents (Elt F) → (⟨S8x2048x1024, .f32⟩ : BufTy).Contents (Elt F)) ]

/-- The feed-forward layer and its residual: cosine of the first 32 features, the affine hidden layer clamped at
    zero, the affine output layer, added to its input (14 operations). -/
abbrev seg3 : List (HloOp τ sig (Elt F)) :=
  [ StableHlo.unary main_v36 main_v37 ((extractStridedSlice S8x2048x32 ![0, 0, 0] · slices_S8x2048x1024_S8x2048x32_0_0_0) : (⟨S8x2048x1024, .f32⟩ : BufTy).Contents (Elt F) → (⟨S8x2048x32, .f32⟩ : BufTy).Contents (Elt F)),
    StableHlo.unary main_v37 main_v38 (Host.cos : (⟨S8x2048x32, .f32⟩ : BufTy).Contents (Elt F) → (⟨S8x2048x32, .f32⟩ : BufTy).Contents (Elt F)),
    StableHlo.binary main_v38 main_arg7 main_v39 ((fun l r => Host.dotGeneral dot_S8x2048x32_S4096x32_S8x2048x4096_2_1_01_0_n_n none l r) : (⟨S8x2048x32, .f32⟩ : BufTy).Contents (Elt F) → (⟨S4096x32, .f32⟩ : BufTy).Contents (Elt F) → (⟨S8x2048x4096, .f32⟩ : BufTy).Contents (Elt F)),
    StableHlo.unary main_arg8 main_v40 (broadcastInDim S1x1x4096 ![2] bcast_S4096_S1x1x4096_2 : (⟨S4096, .f32⟩ : BufTy).Contents (Elt F) → (⟨S1x1x4096, .f32⟩ : BufTy).Contents (Elt F)),
    StableHlo.unary main_v40 main_v41 (broadcastInDim S8x2048x4096 ![0, 1, 2] bcast_S1x1x4096_S8x2048x4096_0_1_2 : (⟨S1x1x4096, .f32⟩ : BufTy).Contents (Elt F) → (⟨S8x2048x4096, .f32⟩ : BufTy).Contents (Elt F)),
    StableHlo.binary main_v39 main_v41 main_v42 (addf : (⟨S8x2048x4096, .f32⟩ : BufTy).Contents (Elt F) → (⟨S8x2048x4096, .f32⟩ : BufTy).Contents (Elt F) → (⟨S8x2048x4096, .f32⟩ : BufTy).Contents (Elt F)),
    StableHlo.TRef.nullary main_call0.cst (constant S_ .f32 0x00000000#32),
    StableHlo.TRef.unary main_call0.cst main_call0.v0 (broadcastInDim S8x2048x4096 ![] bcast_S_S8x2048x4096),
    StableHlo.TRef.binary (.of main_v42) main_call0.v0 main_call0.v1 maximumf,
    StableHlo.binary main_v43 main_arg9 main_v44 ((fun l r => Host.dotGeneral dot_S8x2048x4096_S1024x4096_S8x2048x1024_2_1_01_0_n_n none l r) : (⟨S8x2048x4096, .f32⟩ : BufTy).Contents (Elt F) → (⟨S1024x4096, .f32⟩ : BufTy).Contents (Elt F) → (⟨S8x2048x1024, .f32⟩ : BufTy).Contents (Elt F)),
    StableHlo.unary main_arg10 main_v45 (broadcastInDim S1x1x1024 ![2] bcast_S1024_S1x1x1024_2 : (⟨S1024, .f32⟩ : BufTy).Contents (Elt F) → (⟨S1x1x1024, .f32⟩ : BufTy).Contents (Elt F)),
    StableHlo.unary main_v45 main_v46 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v44 main_v46 main_v47 (addf : (⟨S8x2048x1024, .f32⟩ : BufTy).Contents (Elt F) → (⟨S8x2048x1024, .f32⟩ : BufTy).Contents (Elt F) → (⟨S8x2048x1024, .f32⟩ : BufTy).Contents (Elt F)),
    StableHlo.binary main_v36 main_v47 main_v48 (addf : (⟨S8x2048x1024, .f32⟩ : BufTy).Contents (Elt F) → (⟨S8x2048x1024, .f32⟩ : BufTy).Contents (Elt F) → (⟨S8x2048x1024, .f32⟩ : BufTy).Contents (Elt F)) ]

/-- The second normalisation: the same 29 operations as the first, on other buffers. -/
abbrev seg4 : List (HloOp τ sig (Elt F)) :=
  [ StableHlo.nullary main_cst_4 (constant S_ .f32 0x00000000#32),
    StableHlo.binary main_v48 main_cst_4 main_v49 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v49 main_v50 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_5 (constant S_ .f32 0x44800000#32),
    StableHlo.unary main_cst_5 main_v51 (broadcastInDim S8x2048x1 ![] bcast_S_S8x2048x1 : (⟨S_, .f32⟩ : BufTy).Contents (Elt F) → (⟨S8x2048x1, .f32⟩ : BufTy).Contents (Elt F)),
    StableHlo.binary main_v50 main_v51 main_v52 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v52 main_v53 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v48 main_v53 main_v54 (subf : (⟨S8x2048x1024, .f32⟩ : BufTy).Contents (Elt F) → (⟨S8x2048x1024, .f32⟩ : BufTy).Contents (Elt F) → (⟨S8x2048x1024, .f32⟩ : BufTy).Contents (Elt F)),
    StableHlo.binary main_v54 main_v54 main_v55 (mulf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_6 (constant S_ .f32 0x00000000#32),
    StableHlo.binary main_v55 main_cst_6 main_v56 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    StableHlo.unary main_v56 main_v57 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_7 (constant S_ .f32 0x44800000#32),
    StableHlo.unary main_cst_7 main_v58 (broadcastInDim S8x2048x1 ![] bcast_S_S8x2048x1 : (⟨S_, .f32⟩ : BufTy).Contents (Elt F) → (⟨S8x2048x1, .f32⟩ : BufTy).Contents (Elt F)),
    StableHlo.binary main_v57 main_v58 main_v59 (Host.divf : (⟨S8x2048x1, .f32⟩ : BufTy).Contents (Elt F) → (⟨S8x2048x1, .f32⟩ : BufTy).Contents (Elt F) → (⟨S8x2048x1, .f32⟩ : BufTy).Contents (Elt F)),
    StableHlo.unary main_v52 main_v60 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v48 main_v60 main_v61 (subf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_8 (constant S_ .f32 0x3727C5AC#32),
    StableHlo.unary main_cst_8 main_v62 (broadcastInDim S8x2048x1 ![] bcast_S_S8x2048x1 : (⟨S_, .f32⟩ : BufTy).Contents (Elt F) → (⟨S8x2048x1, .f32⟩ : BufTy).Contents (Elt F)),
    StableHlo.binary main_v59 main_v62 main_v63 (addf : (⟨S8x2048x1, .f32⟩ : BufTy).Contents (Elt F) → (⟨S8x2048x1, .f32⟩ : BufTy).Contents (Elt F) → (⟨S8x2048x1, .f32⟩ : BufTy).Contents (Elt F)),
    StableHlo.unary main_v63 main_v64 (Host.rsqrt : (⟨S8x2048x1, .f32⟩ : BufTy).Contents (Elt F) → (⟨S8x2048x1, .f32⟩ : BufTy).Contents (Elt F)),
    StableHlo.unary main_v64 main_v65 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    StableHlo.binary main_v61 main_v65 main_v66 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg11 main_v67 (broadcastInDim S1x1x1024 ![2] bcast_S1024_S1x1x1024_2 : (⟨S1024, .f32⟩ : BufTy).Contents (Elt F) → (⟨S1x1x1024, .f32⟩ : BufTy).Contents (Elt F)),
    StableHlo.unary main_v67 main_v68 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v66 main_v68 main_v69 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg12 main_v70 (broadcastInDim S1x1x1024 ![2] bcast_S1024_S1x1x1024_2 : (⟨S1024, .f32⟩ : BufTy).Contents (Elt F) → (⟨S1x1x1024, .f32⟩ : BufTy).Contents (Elt F)),
    StableHlo.unary main_v70 main_v71 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v69 main_v71 main_v72 (addf : (⟨S8x2048x1024, .f32⟩ : BufTy).Contents (Elt F) → (⟨S8x2048x1024, .f32⟩ : BufTy).Contents (Elt F) → (⟨S8x2048x1024, .f32⟩ : BufTy).Contents (Elt F)) ]

/-- The line is its four segments, one after the other. -/
theorem ops_eq : (ops : List (HloOp τ sig (Elt F))) = seg1 ++ (seg2 ++ (seg3 ++ seg4)) := rfl

/-- The contents after two lines run in turn: the second line's, from the first line's. -/
theorem after_append (a b : List (HloOp τ sig (Elt F))) (V : Valuation τ sig (Elt F)) :
    after (a ++ b) V = after b (after a V) := by
  induction a generalizing V with
  | nil => rfl
  | cons op a ih => rw [List.cons_append, after_cons, after_cons, ih]

/-! ## What each segment writes, and what it keeps

A segment writes the buffers of its own operations' results and no other.  Listing them once per segment gives, for
any buffer outside the list, that the segment leaves it as it found it. -/

/-- A one-buffer write set lies in the set of a list of references that has the buffer. -/
theorem writes_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map.mpr ⟨y, h, rfl⟩))

/-- The buffers the attention segment writes: one per operation, in order. -/
abbrev writes1 : List (Ref sig .tc) :=
  [main_v0, main_v1, main_v2, main_v3, main_v4, main_v5, main_v6, main_v7, main_v8, main_v9,
   main_v10, main_v11, main_v12]

theorem seg1_writes : (seg1 : List (HloOp τ sig (Elt F))).Forall fun op =>
    op.writes ⊆ (writes1.map (Proc.devRef (τ := τ) .tc)).toFinset :=
  ⟨writes_sub_of_mem (y := main_v0) (by decide), writes_sub_of_mem (y := main_v1) (by decide), writes_sub_of_mem (y := main_v2) (by decide),
   writes_sub_of_mem (y := main_v3) (by decide), writes_sub_of_mem (y := main_v4) (by decide), writes_sub_of_mem (y := main_v5) (by decide),
   writes_sub_of_mem (y := main_v6) (by decide), writes_sub_of_mem (y := main_v7) (by decide), writes_sub_of_mem (y := main_v8) (by decide),
   writes_sub_of_mem (y := main_v9) (by decide), writes_sub_of_mem (y := main_v10) (by decide), writes_sub_of_mem (y := main_v11) (by decide),
   writes_sub_of_mem (y := main_v12) (by decide)⟩

/-- The attention segment leaves every buffer it does not write as it found it. -/
theorem seg1_keeps (W : Valuation τ sig (Elt F)) {r : Ref sig .tc} (hr : r ∉ writes1) :
    after seg1 W (Proc.devRef .tc r : DevRef τ sig) = W (Proc.devRef .tc r : DevRef τ sig) :=
  after_of_writes_sub seg1 W seg1_writes hr

/-- The buffers the first-normalisation segment writes: one per operation, in order. -/
abbrev writes2 : List (Ref sig .tc) :=
  [main_cst, main_v13, main_v14, main_cst_0, main_v15, main_v16, main_v17, main_v18, main_v19, main_cst_1,
   main_v20, main_v21, main_cst_2, main_v22, main_v23, main_v24, main_v25, main_cst_3, main_v26, main_v27,
   main_v28, main_v29, main_v30, main_v31, main_v32, main_v33, main_v34, main_v35, main_v36]

theorem seg2_writes : (seg2 : List (HloOp τ sig (Elt F))).Forall fun op =>
    op.writes ⊆ (writes2.map (Proc.devRef (τ := τ) .tc)).toFinset :=
  ⟨writes_sub_of_mem (y := main_cst) (by decide), writes_sub_of_mem (y := main_v13) (by decide), writes_sub_of_mem (y := main_v14) (by decide),
   writes_sub_of_mem (y := main_cst_0) (by decide), writes_sub_of_mem (y := main_v15) (by decide), writes_sub_of_mem (y := main_v16) (by decide),
   writes_sub_of_mem (y := main_v17) (by decide), writes_sub_of_mem (y := main_v18) (by decide), writes_sub_of_mem (y := main_v19) (by decide),
   writes_sub_of_mem (y := main_cst_1) (by decide), writes_sub_of_mem (y := main_v20) (by decide), writes_sub_of_mem (y := main_v21) (by decide),
   writes_sub_of_mem (y := main_cst_2) (by decide), writes_sub_of_mem (y := main_v22) (by decide), writes_sub_of_mem (y := main_v23) (by decide),
   writes_sub_of_mem (y := main_v24) (by decide), writes_sub_of_mem (y := main_v25) (by decide), writes_sub_of_mem (y := main_cst_3) (by decide),
   writes_sub_of_mem (y := main_v26) (by decide), writes_sub_of_mem (y := main_v27) (by decide), writes_sub_of_mem (y := main_v28) (by decide),
   writes_sub_of_mem (y := main_v29) (by decide), writes_sub_of_mem (y := main_v30) (by decide), writes_sub_of_mem (y := main_v31) (by decide),
   writes_sub_of_mem (y := main_v32) (by decide), writes_sub_of_mem (y := main_v33) (by decide), writes_sub_of_mem (y := main_v34) (by decide),
   writes_sub_of_mem (y := main_v35) (by decide), writes_sub_of_mem (y := main_v36) (by decide)⟩

/-- The first-normalisation segment leaves every buffer it does not write as it found it. -/
theorem seg2_keeps (W : Valuation τ sig (Elt F)) {r : Ref sig .tc} (hr : r ∉ writes2) :
    after seg2 W (Proc.devRef .tc r : DevRef τ sig) = W (Proc.devRef .tc r : DevRef τ sig) :=
  after_of_writes_sub seg2 W seg2_writes hr

/-- The buffers the feed-forward segment writes: one per operation, in order. -/
abbrev writes3 : List (Ref sig .tc) :=
  [main_v37, main_v38, main_v39, main_v40, main_v41, main_v42, main_call0_cst, main_call0_v0, main_v43, main_v44,
   main_v45, main_v46, main_v47, main_v48]

theorem seg3_writes : (seg3 : List (HloOp τ sig (Elt F))).Forall fun op =>
    op.writes ⊆ (writes3.map (Proc.devRef (τ := τ) .tc)).toFinset :=
  ⟨writes_sub_of_mem (y := main_v37) (by decide), writes_sub_of_mem (y := main_v38) (by decide), writes_sub_of_mem (y := main_v39) (by decide),
   writes_sub_of_mem (y := main_v40) (by decide), writes_sub_of_mem (y := main_v41) (by decide), writes_sub_of_mem (y := main_v42) (by decide),
   writes_sub_of_mem (y := main_call0_cst) (by decide), writes_sub_of_mem (y := main_call0_v0) (by decide), writes_sub_of_mem (y := main_v43) (by decide),
   writes_sub_of_mem (y := main_v44) (by decide), writes_sub_of_mem (y := main_v45) (by decide), writes_sub_of_mem (y := main_v46) (by decide),
   writes_sub_of_mem (y := main_v47) (by decide), writes_sub_of_mem (y := main_v48) (by decide)⟩

/-- The feed-forward segment leaves every buffer it does not write as it found it. -/
theorem seg3_keeps (W : Valuation τ sig (Elt F)) {r : Ref sig .tc} (hr : r ∉ writes3) :
    after seg3 W (Proc.devRef .tc r : DevRef τ sig) = W (Proc.devRef .tc r : DevRef τ sig) :=
  after_of_writes_sub seg3 W seg3_writes hr

/-- The buffers the second-normalisation segment writes: one per operation, in order. -/
abbrev writes4 : List (Ref sig .tc) :=
  [main_cst_4, main_v49, main_v50, main_cst_5, main_v51, main_v52, main_v53, main_v54, main_v55, main_cst_6,
   main_v56, main_v57, main_cst_7, main_v58, main_v59, main_v60, main_v61, main_cst_8, main_v62, main_v63,
   main_v64, main_v65, main_v66, main_v67, main_v68, main_v69, main_v70, main_v71, main_v72]

theorem seg4_writes : (seg4 : List (HloOp τ sig (Elt F))).Forall fun op =>
    op.writes ⊆ (writes4.map (Proc.devRef (τ := τ) .tc)).toFinset :=
  ⟨writes_sub_of_mem (y := main_cst_4) (by decide), writes_sub_of_mem (y := main_v49) (by decide), writes_sub_of_mem (y := main_v50) (by decide),
   writes_sub_of_mem (y := main_cst_5) (by decide), writes_sub_of_mem (y := main_v51) (by decide), writes_sub_of_mem (y := main_v52) (by decide),
   writes_sub_of_mem (y := main_v53) (by decide), writes_sub_of_mem (y := main_v54) (by decide), writes_sub_of_mem (y := main_v55) (by decide),
   writes_sub_of_mem (y := main_cst_6) (by decide), writes_sub_of_mem (y := main_v56) (by decide), writes_sub_of_mem (y := main_v57) (by decide),
   writes_sub_of_mem (y := main_cst_7) (by decide), writes_sub_of_mem (y := main_v58) (by decide), writes_sub_of_mem (y := main_v59) (by decide),
   writes_sub_of_mem (y := main_v60) (by decide), writes_sub_of_mem (y := main_v61) (by decide), writes_sub_of_mem (y := main_cst_8) (by decide),
   writes_sub_of_mem (y := main_v62) (by decide), writes_sub_of_mem (y := main_v63) (by decide), writes_sub_of_mem (y := main_v64) (by decide),
   writes_sub_of_mem (y := main_v65) (by decide), writes_sub_of_mem (y := main_v66) (by decide), writes_sub_of_mem (y := main_v67) (by decide),
   writes_sub_of_mem (y := main_v68) (by decide), writes_sub_of_mem (y := main_v69) (by decide), writes_sub_of_mem (y := main_v70) (by decide),
   writes_sub_of_mem (y := main_v71) (by decide), writes_sub_of_mem (y := main_v72) (by decide)⟩

/-- The second-normalisation segment leaves every buffer it does not write as it found it. -/
theorem seg4_keeps (W : Valuation τ sig (Elt F)) {r : Ref sig .tc} (hr : r ∉ writes4) :
    after seg4 W (Proc.devRef .tc r : DevRef τ sig) = W (Proc.devRef .tc r : DevRef τ sig) :=
  after_of_writes_sub seg4 W seg4_writes hr

/-! ## What each segment computes

Each segment's last buffer, read against an arbitrary entry valuation `W`: the fold is unrolled, each operation's result
at its own buffer is its function of the contents of its operands' buffers, and the composed term is the stage function
of the entry contents — by unfolding the stage's definitions, nothing else. -/

set_option maxRecDepth 8192 in
set_option maxHeartbeats 400000 in
/-- The attention segment ends with the attention stage of the five arrays it reads. -/
theorem seg1_out (W : Valuation τ sig (Elt F)) :
    after seg1 W (Proc.devRef .tc main_v12 : DevRef τ sig)
      = RefStages.attnStage (W (Proc.devRef .tc main_arg0 : DevRef τ sig)) (W (Proc.devRef .tc main_arg1 : DevRef τ sig)) (W (Proc.devRef .tc main_arg2 : DevRef τ sig)) (W (Proc.devRef .tc main_arg3 : DevRef τ sig)) (W (Proc.devRef .tc main_arg4 : DevRef τ sig)) := by
  after_results_simp
  rfl

set_option maxRecDepth 8192 in
set_option maxHeartbeats 400000 in
/-- The first-normalisation segment ends with the normalisation stage of the attention result, gain and bias. -/
theorem seg2_out (W : Valuation τ sig (Elt F)) :
    after seg2 W (Proc.devRef .tc main_v36 : DevRef τ sig)
      = RefStages.normStage (W (Proc.devRef .tc main_v12 : DevRef τ sig)) (W (Proc.devRef .tc main_arg5 : DevRef τ sig)) (W (Proc.devRef .tc main_arg6 : DevRef τ sig)) := by
  after_results_simp
  rfl

set_option maxRecDepth 8192 in
set_option maxHeartbeats 400000 in
/-- The feed-forward segment ends with the feed-forward stage of the normalised array and the four weight arrays. -/
theorem seg3_out (W : Valuation τ sig (Elt F)) :
    after seg3 W (Proc.devRef .tc main_v48 : DevRef τ sig)
      = RefStages.ffnStage (W (Proc.devRef .tc main_v36 : DevRef τ sig)) (W (Proc.devRef .tc main_arg7 : DevRef τ sig)) (W (Proc.devRef .tc main_arg8 : DevRef τ sig)) (W (Proc.devRef .tc main_arg9 : DevRef τ sig)) (W (Proc.devRef .tc main_arg10 : DevRef τ sig)) := by
  after_results_simp
  rfl

set_option maxRecDepth 8192 in
set_option maxHeartbeats 400000 in
/-- The second-normalisation segment ends with the same normalisation stage, of the feed-forward result. -/
theorem seg4_out (W : Valuation τ sig (Elt F)) :
    after seg4 W (Proc.devRef .tc main_v72 : DevRef τ sig)
      = RefStages.normStage (W (Proc.devRef .tc main_v48 : DevRef τ sig)) (W (Proc.devRef .tc main_arg11 : DevRef τ sig)) (W (Proc.devRef .tc main_arg12 : DevRef τ sig)) := by
  after_results_simp
  rfl

/-! ## The whole line

The four segments in turn: each reads the previous one's last buffer and weight arrays that no segment writes. -/

/-- The whole line leaves a buffer that none of its segments writes as it found it. -/
theorem ops_keeps (V : Valuation τ sig (Elt F)) {r : Ref sig .tc}
    (h1 : r ∉ writes1) (h2 : r ∉ writes2) (h3 : r ∉ writes3) (h4 : r ∉ writes4) :
    after ops V (Proc.devRef .tc r : DevRef τ sig) = V (Proc.devRef .tc r : DevRef τ sig) := by
  rw [ops_eq, after_append, after_append, after_append, seg4_keeps _ h4, seg3_keeps _ h3, seg2_keeps _ h2,
    seg1_keeps _ h1]

/-- The whole line ends with the four stages composed, of the thirteen argument arrays. -/
theorem ops_out (V : Valuation τ sig (Elt F)) :
    after ops V (Proc.devRef .tc main_v72 : DevRef τ sig)
      = RefStages.normStage
          (RefStages.ffnStage
            (RefStages.normStage
              (RefStages.attnStage (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)))
              (V (Proc.devRef .tc main_arg5 : DevRef τ sig)) (V (Proc.devRef .tc main_arg6 : DevRef τ sig)))
            (V (Proc.devRef .tc main_arg7 : DevRef τ sig)) (V (Proc.devRef .tc main_arg8 : DevRef τ sig)) (V (Proc.devRef .tc main_arg9 : DevRef τ sig)) (V (Proc.devRef .tc main_arg10 : DevRef τ sig)))
          (V (Proc.devRef .tc main_arg11 : DevRef τ sig)) (V (Proc.devRef .tc main_arg12 : DevRef τ sig)) := by
  rw [ops_eq, after_append, after_append, after_append, seg4_out, seg3_out, seg2_out, seg1_out,
    seg3_keeps _ (r := main_arg11) (by decide), seg2_keeps _ (r := main_arg11) (by decide),
    seg1_keeps _ (r := main_arg11) (by decide), seg3_keeps _ (r := main_arg12) (by decide),
    seg2_keeps _ (r := main_arg12) (by decide), seg1_keeps _ (r := main_arg12) (by decide),
    seg2_keeps _ (r := main_arg7) (by decide), seg1_keeps _ (r := main_arg7) (by decide),
    seg2_keeps _ (r := main_arg8) (by decide), seg1_keeps _ (r := main_arg8) (by decide),
    seg2_keeps _ (r := main_arg9) (by decide), seg1_keeps _ (r := main_arg9) (by decide),
    seg2_keeps _ (r := main_arg10) (by decide), seg1_keeps _ (r := main_arg10) (by decide),
    seg1_keeps _ (r := main_arg5) (by decide), seg1_keeps _ (r := main_arg6) (by decide)]

/-! ## The run -/

/-- On every device, for any float values, from any memory with zero counters: every weakly fair execution of the
    program terminates with its result buffer at the four stages composed, of the arguments' launch contents, and
    the thirteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
        = RefStages.normStage
          (RefStages.ffnStage
            (RefStages.normStage
              (RefStages.attnStage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (m ((c.tc : Thread nD τ).loc main_arg5)) (m ((c.tc : Thread nD τ).loc main_arg6)))
            (m ((c.tc : Thread nD τ).loc main_arg7)) (m ((c.tc : Thread nD τ).loc main_arg8)) (m ((c.tc : Thread nD τ).loc main_arg9)) (m ((c.tc : Thread nD τ).loc main_arg10)))
          (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v72).trans (ops_out _),
      (h c main_arg0).trans (ops_keeps _ (by decide) (by decide) (by decide) (by decide)),
      (h c main_arg1).trans (ops_keeps _ (by decide) (by decide) (by decide) (by decide)),
      (h c main_arg2).trans (ops_keeps _ (by decide) (by decide) (by decide) (by decide)),
      (h c main_arg3).trans (ops_keeps _ (by decide) (by decide) (by decide) (by decide)),
      (h c main_arg4).trans (ops_keeps _ (by decide) (by decide) (by decide) (by decide)),
      (h c main_arg5).trans (ops_keeps _ (by decide) (by decide) (by decide) (by decide)),
      (h c main_arg6).trans (ops_keeps _ (by decide) (by decide) (by decide) (by decide)),
      (h c main_arg7).trans (ops_keeps _ (by decide) (by decide) (by decide) (by decide)),
      (h c main_arg8).trans (ops_keeps _ (by decide) (by decide) (by decide) (by decide)),
      (h c main_arg9).trans (ops_keeps _ (by decide) (by decide) (by decide) (by decide)),
      (h c main_arg10).trans (ops_keeps _ (by decide) (by decide) (by decide) (by decide)),
      (h c main_arg11).trans (ops_keeps _ (by decide) (by decide) (by decide) (by decide)),
      (h c main_arg12).trans (ops_keeps _ (by decide) (by decide) (by decide) (by decide))⟩)
    (run_seq scopedRefs_eq scopedSems_eq defs main (fun _ => ops) main_eq (fun _ => ops_sub) m ρ)

end Cert.RefRun

end
-- ==== Proof.RefOps.lean ====
/-
  THE REFERENCE'S ARRAY OPERATIONS, READ AT ONE ENTRY.

  Every operation of the reference program produces an array each of whose entries depends on the operands in a simple
  way: a product contracts one axis (a sum over that axis of products of entries), a row sum adds the entries of one
  row to the initial value, and a reshape, a broadcast or a slice reads ONE entry of its operand.  Each lemma below
  states one of these for one operation at the program's shapes, at the extended reals, with the entry named by its
  coordinates.

    products      (l · rᵀ) (b, s, f) = ∑ e, l (b, s, e) · r (f, e)                        for the three pairs of extents
    row sum       (init + ∑ over the last axis) (b, s) = init + ∑ e, x (b, s, e)
    reshapes      a row of 1024 features seen as 16 × 64: entry (h, d) is feature 64 h + d, and back
    broadcasts    a vector along the leading axes; a column along the row; a scalar everywhere
    slice         the first 32 features of every row
-/
import proofs.«179164_j65481071407980_2_alg».proof.ReferenceIdeal
import Idealize.ShloMosaic.Lib.Pipeline.Value
import Idealize.ShloMosaic.Lib.ValueIdx
import Idealize.ShloMosaic.PureOps.Ideal.Laws

open scoped BigOperators

namespace Cert.RefOps

open Idealize.ShloMosaic Idealize.ShloMosaic.ValueIdx
open Cert.ReferenceIdeal
open Cert.ReferenceIdeal.Facts₀

/-! ## A product contracting the last axis of both operands -/

/-- For a `B × S × K` array `l` and an `N × K` matrix `r`, the product contracting the last axis of each is, at
    `(b, s, f)`, the sum over `e` of `l (b, s, e) · r (f, e)`.  The contraction index set has one axis of extent `K`;
    the sum is re-indexed along the bijection of that set with `Fin K`, and the two operand indices are read off the
    dimension numbers coordinate by coordinate. -/
theorem dot_rows_apply {B S K N : ℕ} {φ₁ φ₂ : FTy}
    (w : DotDims.WF ⟨3, ![B, S, K]⟩ ⟨2, ![N, K]⟩ ⟨3, ![B, S, N]⟩ [2] [1] [0, 1] [0] [] [])
    (prec : Option ContractPrecision) (l : FVec Ideal ⟨3, ![B, S, K]⟩ φ₁) (r : FVec Ideal ⟨2, ![N, K]⟩ φ₂)
    (b : Fin B) (s : Fin S) (f : Fin N) :
    Host.dotGeneral (⟨[2], [1], [0, 1], [0], [], [], w⟩ : DotDims _ _ _) prec l r (ix3 b s f)
      = ∑ e : Fin K, l (ix3 b s e) * r (ix2 f e) := by
  show FloatOps.dotGeneral _ prec _ l r (ix3 b s f) = _
  rw [Ideal.dotGeneral_apply,
    ← Equiv.sum_comp (contrEquiv1 (⟨[2], [1], [0, 1], [0], [], [], w⟩ : DotDims _ _ _) K rfl rfl).symm]
  refine Finset.sum_congr rfl fun e _ => ?_
  have c3 := contrEquiv1_symm_val
    (⟨[2], [1], [0, 1], [0], [], [], w⟩ : DotDims ⟨3, ![B, S, K]⟩ ⟨2, ![N, K]⟩ ⟨3, ![B, S, N]⟩) K rfl rfl e
  have l3 : (⟨[2], [1], [0, 1], [0], [], [], w⟩ : DotDims ⟨3, ![B, S, K]⟩ ⟨2, ![N, K]⟩ ⟨3, ![B, S, N]⟩).lhsIdx (ix3 b s f)
      ((contrEquiv1 _ K rfl rfl).symm e) = ix3 b s e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, S, K]⟩ ⟨2, ![N, K]⟩ ⟨3, ![B, S, N]⟩).rhsIdx (ix3 b s f)
      ((contrEquiv1 _ K rfl rfl).symm e) = ix2 f e := by
    funext ax; apply Fin.ext
    match ax with
    | ⟨0, _⟩ => simp [DotDims.rhsIdx]; rfl
    | ⟨1, _⟩ => simp [DotDims.rhsIdx]; exact c3
  rw [l3, r3]

section Program
variable [Facts₀]

/-- The `1024 → 1024` projections: entry `(b, s, f)` is `∑ e, l (b, s, e) · r (f, e)`. -/
theorem dot_1024_1024_apply (l : (⟨S8x2048x1024, .f32⟩ : BufTy).Contents (Elt Ideal))
    (r : (⟨S1024x1024, .f32⟩ : BufTy).Contents (Elt Ideal)) (b : Fin 8) (s : Fin 2048) (f : Fin 1024) :
    Host.dotGeneral (F := Ideal) (φ₁ := .f32) (φ₂ := .f32) dot_S8x2048x1024_S1024x1024_S8x2048x1024_2_1_01_0_n_n none l r (ix3 b s f)
      = ∑ e : Fin 1024, l (ix3 b s e) * r (ix2 f e) :=
  dot_rows_apply _ none l r b s f

/-- The `32 → 4096` layer: entry `(b, s, f)` is `∑ k, l (b, s, k) · r (f, k)`. -/
theorem dot_32_4096_apply (l : (⟨S8x2048x32, .f32⟩ : BufTy).Contents (Elt Ideal))
    (r : (⟨S4096x32, .f32⟩ : BufTy).Contents (Elt Ideal)) (b : Fin 8) (s : Fin 2048) (f : Fin 4096) :
    Host.dotGeneral (F := Ideal) (φ₁ := .f32) (φ₂ := .f32) dot_S8x2048x32_S4096x32_S8x2048x4096_2_1_01_0_n_n none l r (ix3 b s f)
      = ∑ k : Fin 32, l (ix3 b s k) * r (ix2 f k) :=
  dot_rows_apply _ none l r b s f

/-- The `4096 → 1024` layer: entry `(b, s, j)` is `∑ f, l (b, s, f) · r (j, f)`. -/
theorem dot_4096_1024_apply (l : (⟨S8x2048x4096, .f32⟩ : BufTy).Contents (Elt Ideal))
    (r : (⟨S1024x4096, .f32⟩ : BufTy).Contents (Elt Ideal)) (b : Fin 8) (s : Fin 2048) (j : Fin 1024) :
    Host.dotGeneral (F := Ideal) (φ₁ := .f32) (φ₂ := .f32) dot_S8x2048x4096_S1024x4096_S8x2048x1024_2_1_01_0_n_n none l r (ix3 b s j)
      = ∑ f : Fin 4096, l (ix3 b s f) * r (ix2 j f) :=
  dot_rows_apply _ none l r b s j

/-! ## The row sum -/

/-- The sum along the last axis, started from the scalar `v`: entry `(b, s)` is `v + ∑ e, x (b, s, e)`. -/
theorem reduceAdd_rows_apply (x : (⟨S8x2048x1024, .f32⟩ : BufTy).Contents (Elt Ideal))
    (v : (⟨S_, .f32⟩ : BufTy).Contents (Elt Ideal)) (b : Fin 8) (s : Fin 2048) :
    Host.reduceAdd (F := Ideal) (φ := .f32) x v reducesTo_S8x2048x1024_S8x2048_d2 h_S_ (ix2 b s)
      = v ix0 + ∑ e : Fin 1024, x (ix3 b s e) := by
  have h : S8x2048x1024.Reduces [2] S8x2048 := by decide
  show Ideal.hostReduceAdd reducesTo_S8x2048x1024_S8x2048_d2 x (v (Shape.Idx.first h_S_)) (ix2 b s) = _
  rw [Ideal.hostReduceAdd_single reducesTo_S8x2048x1024_S8x2048_d2 h x _ (ix2 b s), eq_ix0 (Shape.Idx.first h_S_)]
  refine congrArg (v ix0 + ·) (Finset.sum_congr rfl fun e _ => congrArg x (funext fun ax => Fin.ext ?_))
  rw [h.lift_val]
  unfold Shape.Reduces.liftVal
  match ax with
  | ⟨0, _⟩ => rfl
  | ⟨1, _⟩ => rfl
  | ⟨2, _⟩ => rfl

/-! ## The reshapes between a row of 1024 features and 16 heads of 64 -/

variable {α : Type}

/-- Seen as `16 × 64`, entry `(h, d)` of a row is its feature `e = 64 h + d`: both sit at the same row-major position. -/
theorem reshape_heads_apply (x : S8x2048x1024.Idx → α) (b : Fin 8) (s : Fin 2048) (h : Fin 16) (d : Fin 64) (e : Fin 1024)
    (he : e.val = 64 * h.val + d.val) :
    shapeCast S8x2048x16x64 x shapeCasts_S8x2048x1024_S8x2048x16x64 (ix4 b s h d) = x (ix3 b s e) :=
  shapeCast_apply x _ _ _ (by
    rw [Shape.rowMajor_val_three, Shape.rowMajor_val_four]
    show (b.val * 2048 + s.val) * 1024 + e.val = ((b.val * 2048 + s.val) * 16 + h.val) * 64 + d.val
    omega)

/-- Back to a row: feature `e` is entry `(e / 64, e mod 64)` of the `16 × 64` view. -/
theorem reshape_row_apply (y : S8x2048x16x64.Idx → α) (b : Fin 8) (s : Fin 2048) (e : Fin 1024) :
    shapeCast S8x2048x1024 y shapeCasts_S8x2048x16x64_S8x2048x1024 (ix3 b s e)
      = y (ix4 b s (⟨e.val / 64, by have := e.isLt; omega⟩ : Fin 16) (⟨e.val % 64, Nat.mod_lt _ (by norm_num)⟩ : Fin 64)) :=
  shapeCast_apply y _ _ _ (by
    rw [Shape.rowMajor_val_three, Shape.rowMajor_val_four]
    show ((b.val * 2048 + s.val) * 16 + e.val / 64) * 64 + e.val % 64 = (b.val * 2048 + s.val) * 1024 + e.val
    omega)

/-- The two views composed at one feature: entry `(e / 64, e mod 64)` of the `16 × 64` view of a row is its feature `e`,
    since `64 (e / 64) + e mod 64 = e`. -/
theorem reshape_heads_row_apply (x : S8x2048x1024.Idx → α) (b : Fin 8) (s : Fin 2048) (e : Fin 1024) :
    shapeCast S8x2048x16x64 x shapeCasts_S8x2048x1024_S8x2048x16x64
      (ix4 b s (⟨e.val / 64, by have := e.isLt; omega⟩ : Fin 16) (⟨e.val % 64, Nat.mod_lt _ (by norm_num)⟩ : Fin 64))
      = x (ix3 b s e) :=
  reshape_heads_apply x b s _ _ e (by show e.val = 64 * (e.val / 64) + e.val % 64; omega)

/-! ## The broadcasts -/

/-- The 64 angles placed on the last axis of a `1 × 1 × 1 × 64` array and repeated over batch, position and head: entry
    `(b, s, h, d)` is the vector's entry `d`. -/
theorem bcast_64_heads_apply (v : S64.Idx → α) (b : Fin 8) (s : Fin 2048) (h : Fin 16) (d : Fin 64) :
    broadcastInDim S8x2048x16x64 ![0, 1, 2, 3] bcast_S1x1x1x64_S8x2048x16x64_0_1_2_3
      (broadcastInDim S1x1x1x64 ![3] bcast_S64_S1x1x1x64_3 v) (ix4 b s h d) = v (ix1 d) := by
  refine (broadcastInDim_apply _ _ _ (ix4 b s h d) (ix4 (0 : Fin 1) (0 : Fin 1) (0 : Fin 1) d) fun ax => ?_).trans
    (broadcastInDim_apply _ _ v _ (ix1 d) fun ax => ?_)
  · match ax with
    | ⟨0, _⟩ => rfl
    | ⟨1, _⟩ => rfl
    | ⟨2, _⟩ => rfl
    | ⟨3, _⟩ => rfl
  · match ax with
    | ⟨0, _⟩ => rfl

/-- A vector of 1024 entries placed on the last axis and repeated over batch and position: entry `(b, s, e)` is the
    vector's entry `e`. -/
theorem bcast_1024_rows_apply (v : S1024.Idx → α) (b : Fin 8) (s : Fin 2048) (e : Fin 1024) :
    broadcastInDim S8x2048x1024 ![0, 1, 2] bcast_S1x1x1024_S8x2048x1024_0_1_2
      (broadcastInDim S1x1x1024 ![2] bcast_S1024_S1x1x1024_2 v) (ix3 b s e) = v (ix1 e) := by
  refine (broadcastInDim_apply _ _ _ (ix3 b s e) (ix3 (0 : Fin 1) (0 : Fin 1) e) fun ax => ?_).trans
    (broadcastInDim_apply _ _ v _ (ix1 e) fun ax => ?_)
  · match ax with
    | ⟨0, _⟩ => rfl
    | ⟨1, _⟩ => rfl
    | ⟨2, _⟩ => rfl
  · match ax with
    | ⟨0, _⟩ => rfl

/-- The same for a vector of 4096 entries. -/
theorem bcast_4096_rows_apply (v : S4096.Idx → α) (b : Fin 8) (s : Fin 2048) (f : Fin 4096) :
    broadcastInDim S8x2048x4096 ![0, 1, 2] bcast_S1x1x4096_S8x2048x4096_0_1_2
      (broadcastInDim S1x1x4096 ![2] bcast_S4096_S1x1x4096_2 v) (ix3 b s f) = v (ix1 f) := by
  refine (broadcastInDim_apply _ _ _ (ix3 b s f) (ix3 (0 : Fin 1) (0 : Fin 1) f) fun ax => ?_).trans
    (broadcastInDim_apply _ _ v _ (ix1 f) fun ax => ?_)
  · match ax with
    | ⟨0, _⟩ => rfl
    | ⟨1, _⟩ => rfl
    | ⟨2, _⟩ => rfl
  · match ax with
    | ⟨0, _⟩ => rfl

/-- An `8 × 2048` array seen as a column `8 × 2048 × 1`: entry `(b, s, u)` is entry `(b, s)`. -/
theorem bcast_col_apply (x : S8x2048.Idx → α) (b : Fin 8) (s : Fin 2048) (u : Fin 1) :
    broadcastInDim S8x2048x1 ![0, 1] bcast_S8x2048_S8x2048x1_0_1 x (ix3 b s u) = x (ix2 b s) :=
  broadcastInDim_apply _ _ x _ (ix2 b s) fun ax => by
    match ax with
    | ⟨0, _⟩ => rfl
    | ⟨1, _⟩ => rfl

/-- A scalar repeated over an `8 × 2048 × 1` column: every entry is the scalar. -/
theorem bcast_scalar_col_apply (c : S_.Idx → α) (i : S8x2048x1.Idx) :
    broadcastInDim S8x2048x1 ![] bcast_S_S8x2048x1 c i = c ix0 :=
  broadcastInDim_apply _ _ c i ix0 fun ax => ax.elim0

/-- A scalar repeated over an `8 × 2048 × 4096` array: every entry is the scalar. -/
theorem bcast_scalar_hidden_apply (c : S_.Idx → α) (i : S8x2048x4096.Idx) :
    broadcastInDim S8x2048x4096 ![] bcast_S_S8x2048x4096 c i = c ix0 :=
  broadcastInDim_apply _ _ c i ix0 fun ax => ax.elim0

/-- A column repeated along the row: entry `(b, s, e)` is the column's entry `(b, s, 0)`. -/
theorem bcast_col_rows_apply (x : S8x2048x1.Idx → α) (b : Fin 8) (s : Fin 2048) (e : Fin 1024) :
    broadcastInDim S8x2048x1024 ![0, 1, 2] bcast_S8x2048x1_S8x2048x1024_0_1_2 x (ix3 b s e) = x (ix3 b s (0 : Fin 1)) :=
  broadcastInDim_apply _ _ x _ (ix3 b s (0 : Fin 1)) fun ax => by
    match ax with
    | ⟨0, _⟩ => rfl
    | ⟨1, _⟩ => rfl
    | ⟨2, _⟩ => rfl

/-! ## The slice -/

/-- The first 32 features of every row: entry `(b, s, k)` is entry `(b, s, k)` of the operand. -/
theorem slice_32_apply (x : S8x2048x1024.Idx → α) (b : Fin 8) (s : Fin 2048) (k : Fin 32) :
    extractStridedSlice S8x2048x32 ![0, 0, 0] x slices_S8x2048x1024_S8x2048x32_0_0_0 (ix3 b s k)
      = x (ix3 b s (⟨k.val, by have := k.isLt; omega⟩ : Fin 1024)) :=
  extractStridedSlice_apply _ x _ _ _ fun ax => by
    match ax with
    | ⟨0, _⟩ => exact (Nat.zero_add _).symm
    | ⟨1, _⟩ => exact (Nat.zero_add _).symm
    | ⟨2, _⟩ => exact (Nat.zero_add _).symm

end Program

/-! ## The host's one-operand and division operations at an entry, at the extended reals -/

section Pointwise
variable {s : Shape} {φ : FTy}

/-- The host's cosine at an entry is the extended reals' cosine of the entry. -/
theorem hostCos_apply (x : FVec Ideal s φ) (i : s.Idx) : Host.cos x i = Ideal.cos (x i) := rfl
/-- The host's reciprocal square root at an entry is the extended reals' one of the entry. -/
theorem hostRsqrt_apply (x : FVec Ideal s φ) (i : s.Idx) : Host.rsqrt x i = Ideal.rsqrt (x i) := rfl
/-- The host's quotient at an entry is the extended reals' division of the entries. -/
theorem hostDivf_apply (x y : FVec Ideal s φ) (i : s.Idx) : Host.divf x y i = Ideal.div (x i) (y i) := rfl

end Pointwise

end Cert.RefOps
-- ==== Proof.RefRead.lean ====
/-
  THE REFERENCE'S STAGES AT ONE ENTRY, AND THEIR COMPOSITION.

  Each of the three stages of the reference (attention, normalisation, feed-forward) acts on every row of 1024
  features on its own.  Read at the entry `(b, s, j)`, a stage's result is entry `j` of the specification's row
  function applied to row `(b, s)` of its input:

    attention      x ↦ x + (Wc · (cos (Wq · x) ⊙ cos angles) + bc)
    normalisation  v ↦ (v − mean v) · rsqrt (var v + ε) · g + β
    feed-forward   y ↦ y + (W2 · max (W1 · cos y[0..32) + c1) 0 + c2)

  Each is proved by reading the stage's operations at the entry, outermost first, with the one-operation lemmas; the
  row sums start from the literal `0.0`, which is the real zero.  Composed, the three are the specification's block
  applied to every token.
-/
import proofs.«179164_j65481071407980_2_alg».proof.Proof.RefStages
import proofs.«179164_j65481071407980_2_alg».proof.Proof.RefOps
import proofs.«179164_j65481071407980_2_alg».proof.Proof.TokenSpec

open scoped BigOperators

namespace Cert.RefRead

open Idealize.ShloMosaic Idealize.ShloMosaic.ValueIdx
open Cert.ReferenceIdeal Cert.RefStages Cert.RefOps

variable [Facts₀]

/-! ## The attention stage -/

/-- Entry `(b, s, f)` of the attention stage: the input's entry plus entry `f` of the output projection of the
    activation `cos (Wq · x) ⊙ cos angles` of row `x = a0 (b, s, ·)`. -/
theorem attnStage_apply (a0 : FVec Ideal S8x2048x1024 .f32) (a1 : FVec Ideal S1024x1024 .f32) (a2 : FVec Ideal S64 .f32)
    (a3 : FVec Ideal S1024x1024 .f32) (a4 : FVec Ideal S1024 .f32) (b : Fin 8) (s : Fin 2048) (f : Fin 1024) :
    attnStage (F := Ideal) a0 a1 a2 a3 a4 (ix3 b s f)
      = a0 (ix3 b s f) + TokenSpec.affine (fun f e => a3 (ix2 f e)) (fun e => a4 (ix1 e))
          (TokenSpec.attnAct (fun f e => a1 (ix2 f e)) (fun d => a2 (ix1 d)) (fun e => a0 (ix3 b s e))) f := by
  unfold attnStage
  rw [addf_apply, addf_apply, dot_1024_1024_apply, bcast_1024_rows_apply]
  unfold TokenSpec.affine
  refine congrArg (fun t => a0 (ix3 b s f) + (t + a4 (ix1 f))) (Finset.sum_congr rfl fun e _ => ?_)
  rw [reshape_row_apply, mulf_apply, hostCos_apply, reshape_heads_row_apply, dot_1024_1024_apply, bcast_64_heads_apply,
    hostCos_apply]
  rfl

/-! ## The normalisation stage -/

/-- The row-sum column at `(b, s, u)` is the sum of row `(b, s)`: the initial value is the literal `0.0`. -/
theorem sumCol_apply (h : FVec Ideal S8x2048x1024 .f32) (b : Fin 8) (s : Fin 2048) (u : Fin 1) :
    sumCol (F := Ideal) h (ix3 b s u) = ∑ e : Fin 1024, h (ix3 b s e) := by
  unfold sumCol
  rw [bcast_col_apply, reduceAdd_rows_apply, constant_apply, Ideal.ofBits_zero_f32, zero_add]

/-- The mean column at `(b, s, u)` is the mean of row `(b, s)`. -/
theorem meanCol_apply (h : FVec Ideal S8x2048x1024 .f32) (b : Fin 8) (s : Fin 2048) (u : Fin 1) :
    meanCol (F := Ideal) h (ix3 b s u) = TokenSpec.mean (fun e => h (ix3 b s e)) := by
  unfold meanCol
  rw [hostDivf_apply, sumCol_apply, bcast_scalar_col_apply, constant_apply]
  rfl

/-- The centred array at `(b, s, e)` is the entry minus the mean of its row. -/
theorem centred_apply (h : FVec Ideal S8x2048x1024 .f32) (b : Fin 8) (s : Fin 2048) (e : Fin 1024) :
    centred (F := Ideal) h (ix3 b s e) = h (ix3 b s e) - TokenSpec.mean (fun e => h (ix3 b s e)) := by
  unfold centred
  rw [subf_apply, bcast_col_rows_apply, meanCol_apply]

/-- The reciprocal-deviation column at `(b, s, u)` is `rsqrt (var + ε)` of row `(b, s)`. -/
theorem rstdCol_apply (h : FVec Ideal S8x2048x1024 .f32) (b : Fin 8) (s : Fin 2048) (u : Fin 1) :
    rstdCol (F := Ideal) h (ix3 b s u)
      = Ideal.rsqrt (TokenSpec.var (fun e => h (ix3 b s e)) + TokenSpec.eps) := by
  unfold rstdCol
  rw [hostRsqrt_apply, addf_apply, meanCol_apply, bcast_scalar_col_apply, constant_apply]
  unfold TokenSpec.var TokenSpec.mean
  simp only [mulf_apply, centred_apply]
  rfl

/-- Entry `(b, s, j)` of the normalisation stage is entry `j` of the layer normalisation of row `(b, s)`. -/
theorem normStage_apply (h : FVec Ideal S8x2048x1024 .f32) (g β : FVec Ideal S1024 .f32) (b : Fin 8) (s : Fin 2048) (j : Fin 1024) :
    normStage (F := Ideal) h g β (ix3 b s j)
      = TokenSpec.lnorm (fun e => g (ix1 e)) (fun e => β (ix1 e)) (fun e => h (ix3 b s e)) j := by
  unfold normStage
  rw [addf_apply, mulf_apply, mulf_apply, centred_apply, bcast_col_rows_apply, rstdCol_apply, bcast_1024_rows_apply,
    bcast_1024_rows_apply]
  rfl

/-! ## The feed-forward stage -/

/-- Entry `(b, s, f)` of the hidden layer: the first affine layer of the cosines of the row's first 32 features,
    clamped below at the literal `0.0`. -/
theorem hiddenArr_apply (h : FVec Ideal S8x2048x1024 .f32) (a7 : FVec Ideal S4096x32 .f32) (a8 : FVec Ideal S4096 .f32)
    (b : Fin 8) (s : Fin 2048) (f : Fin 4096) :
    hiddenArr (F := Ideal) h a7 a8 (ix3 b s f)
      = TokenSpec.hidden (fun f k => a7 (ix2 f k)) (fun f => a8 (ix1 f)) (fun e => h (ix3 b s e)) f := by
  unfold hiddenArr
  rw [maximumf_apply, addf_apply, dot_32_4096_apply, bcast_4096_rows_apply, bcast_scalar_hidden_apply, constant_apply]
  unfold TokenSpec.hidden TokenSpec.affine TokenSpec.floor0
  refine congrArg (fun t => max (t + a8 (ix1 f)) _) (Finset.sum_congr rfl fun k _ => ?_)
  rw [hostCos_apply, slice_32_apply]
  rfl

/-- Entry `(b, s, j)` of the feed-forward stage: the input's entry plus entry `j` of the second affine layer of
    the hidden layer of row `y = h (b, s, ·)`. -/
theorem ffnStage_apply (h : FVec Ideal S8x2048x1024 .f32) (a7 : FVec Ideal S4096x32 .f32) (a8 : FVec Ideal S4096 .f32)
    (a9 : FVec Ideal S1024x4096 .f32) (a10 : FVec Ideal S1024 .f32) (b : Fin 8) (s : Fin 2048) (j : Fin 1024) :
    ffnStage (F := Ideal) h a7 a8 a9 a10 (ix3 b s j)
      = h (ix3 b s j) + TokenSpec.affine (fun j f => a9 (ix2 j f)) (fun j => a10 (ix1 j))
          (TokenSpec.hidden (fun f k => a7 (ix2 f k)) (fun f => a8 (ix1 f)) (fun e => h (ix3 b s e))) j := by
  unfold ffnStage
  rw [addf_apply, addf_apply, dot_4096_1024_apply, bcast_1024_rows_apply]
  unfold TokenSpec.affine
  refine congrArg (fun t => h (ix3 b s j) + (t + a10 (ix1 j))) (Finset.sum_congr rfl fun f _ => ?_)
  rw [hiddenArr_apply]

/-! ## The composition -/

/-- THE REFERENCE'S RESULT: normalisation after feed-forward after normalisation after attention is the
    specification's block applied to every token. -/
theorem stages_eq (a0 : FVec Ideal S8x2048x1024 .f32) (a1 : FVec Ideal S1024x1024 .f32) (a2 : FVec Ideal S64 .f32)
    (a3 : FVec Ideal S1024x1024 .f32) (a4 a5 a6 : FVec Ideal S1024 .f32) (a7 : FVec Ideal S4096x32 .f32)
    (a8 : FVec Ideal S4096 .f32) (a9 : FVec Ideal S1024x4096 .f32) (a10 a11 a12 : FVec Ideal S1024 .f32) :
    normStage (F := Ideal) (ffnStage (normStage (attnStage a0 a1 a2 a3 a4) a5 a6) a7 a8 a9 a10) a11 a12
      = TokenSpec.blockOf (TokenSpec.paramsOf a1 a2 a3 a4 a5 a6 a7 a8 a9 a10 a11 a12) a0 := by
  funext i
  obtain ⟨b, s, j, rfl⟩ : ∃ (b : Fin 8) (s : Fin 2048) (j : Fin 1024), i = ix3 b s j := ⟨i 0, i 1, i 2, eq_ix3 i⟩
  rw [normStage_apply]
  simp only [ffnStage_apply, normStage_apply, attnStage_apply]
  rfl

end Cert.RefRead
-- ==== Proof.RefClaims.lean ====
/-
  The reference program's two claims at the ideal instance (floats the extended reals, every operation exact).

  The frame: the program runs to the end and leaves its thirteen argument arrays as it found them — the run's
  statement without its first conjunct.

  The value: the result array is the specification's block applied to every token of the input, with the weights read
  off the twelve weight arrays.  The run gives the result as the four stage functions composed, of the launch contents;
  the stages composed are the block on every token.
-/
import proofs.«179164_j65481071407980_2_alg».proof.Defs
import proofs.«179164_j65481071407980_2_alg».proof.Proof.Gen.ReferenceIdeal
import proofs.«179164_j65481071407980_2_alg».proof.Proof.Gen.Pre_finite_inputs
import proofs.«179164_j65481071407980_2_alg».proof.Proof.RefRun
import proofs.«179164_j65481071407980_2_alg».proof.Proof.RefRead
import proofs.«179164_j65481071407980_2_alg».proof.Proof.TokenSpec

namespace Cert.RefClaims

open Idealize.ShloMosaic Idealize.SL.Sem
open Cert.ReferenceIdeal

/-- The reference runs to the end and its argument arrays end unchanged. -/
theorem frame_ri : Cert.frame_ReferenceIdeal := fun m ρ _ =>
  (θ_run Cert.ReferenceIdeal.defs _ _).mono (fun _ h c => (h c).2) (Cert.RefRun.run (F := Ideal) m ρ)

/-- From any memory with zero counters the reference runs to the end; its result array is then the block of the
    specification on every token of the first argument's launch contents, the weights those of the other twelve
    arguments' launch contents, and all thirteen arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72)
        = TokenSpec.blockOf
            (TokenSpec.paramsOf (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11)) (m ((c.tc : Thread nD τ).loc main_arg12)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨((h c).1).trans (Cert.RefRead.stages_eq _ _ _ _ _ _ _ _ _ _ _ _ _), (h c).2⟩)
    (Cert.RefRun.run (F := Ideal) m ρ)

end Cert.RefClaims
-- ==== Proof.lean ====
/-
  The certificate: a fused transformer block on the TensorCore equals its reference at the extended reals.

  THE MATHEMATICS.  The block — a cosine-activated projection recombined and added to the input, a layer
  normalisation, a cosine-activated feed-forward layer clamped at zero and added back, a second layer normalisation —
  treats each of the 8 × 2048 tokens on its own.  Both programs are shown to compute ONE function of the thirteen
  argument arrays, `blockOf (paramsOf a₁ … a₁₂) a₀`: entry `(b, s, j)` is entry `j` of the token function applied to
  token `(b, s)` (Proof/TokenSpec.lean).

  The kernel (Proof/BodyOps, BodyRows, Operands, Blocks, Tail, KernelRun): the launch cuts the 16384 token rows into 64
  blocks of 256; each grid point is handed one block and every weight whole, and its body is, row by row, the token
  function; the 64 written blocks tile the result, which the host re-lays as 8 × 2048 tokens.  The host lays the 64
  rotation cosines 16 times along a row (feature `e` gets angle `e mod 64`, which is the reference's split into 16
  heads of 64), and pads the first feed-forward weight from 32 to 128 columns with zeros.

  The reference (Proof/RefRun, RefStages, RefOps, RefRead, RefClaims): its 85 host operations are read back in four
  segments — attention and residual, normalisation, feed-forward and residual, normalisation — each a whole-array
  stage, each stage at an index the token function's corresponding step.

  THE ONE LAW between the two: a contraction over 128 products whose last 96 weights are zero is the contraction over
  the first 32.  It needs only `x · 0 = 0`, which holds for every extended real, so the precondition (all inputs
  finite) is never opened.  Everything else is the same operations on the same numbers in another layout: the same
  words for 1024, ε and 0 on both sides, division and reciprocal square root and cosine the same exact functions, a
  matrix product into a zero accumulator and the host's product the same sum.

  The ideal pass rewrote nothing in this kernel, so the idealization claim is trivially true.
-/
import proofs.«179164_j65481071407980_2_alg».proof.Defs
import proofs.«179164_j65481071407980_2_alg».proof.Proof.Gen.Kernel
import proofs.«179164_j65481071407980_2_alg».proof.Proof.Gen.Kernel.Skeleton
import proofs.«179164_j65481071407980_2_alg».proof.Proof.Gen.Kernel.Launch
import proofs.«179164_j65481071407980_2_alg».proof.Proof.Gen.Kernel.Points
import proofs.«179164_j65481071407980_2_alg».proof.Proof.Gen.Kernel.Frame
import proofs.«179164_j65481071407980_2_alg».proof.Proof.Gen.KernelIdeal
import proofs.«179164_j65481071407980_2_alg».proof.Proof.Gen.KernelIdeal.Skeleton
import proofs.«179164_j65481071407980_2_alg».proof.Proof.Gen.KernelIdeal.Launch
import proofs.«179164_j65481071407980_2_alg».proof.Proof.Gen.KernelIdeal.Points
import proofs.«179164_j65481071407980_2_alg».proof.Proof.Gen.KernelIdeal.Frame
import proofs.«179164_j65481071407980_2_alg».proof.Proof.Gen.ReferenceIdeal
import proofs.«179164_j65481071407980_2_alg».proof.Proof.Gen.Pre_finite_inputs
import proofs.«179164_j65481071407980_2_alg».proof.Proof.TokenSpec
import proofs.«179164_j65481071407980_2_alg».proof.Proof.KernelRun
import proofs.«179164_j65481071407980_2_alg».proof.Proof.RefClaims
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The ideal pass rewrote no operation: nothing to restate. -/
theorem preserves : Cert.preserves_Kernel_KernelIdeal := trivial

/-- From memories agreeing on the thirteen arguments both programs end with the block function of those arguments. -/
theorem algebraic : Cert.algebraic_KernelIdeal_ReferenceIdeal := by
  intro m ρ m' ρ' _ hagree
  refine ⟨fun c => Cert.TokenSpec.blockOf (Cert.ResultRows.weights m c) (Cert.Operands.a0 m c), Cert.KernelRun.run m ρ, ?_⟩
  refine (θ_run Cert.ReferenceIdeal.defs _ _).mono (fun _ h c => ⟨(h c).1.trans ?_, (h c).2⟩)
    (Cert.RefClaims.ref_run m' ρ')
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, Cert.RefClaims.frame_ri, preserves, algebraic⟩

end Cert.Proof

end
